-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16 : Shape := ⟨2, ![4096, 16]⟩
abbrev S4096x4096 : Shape := ⟨2, ![4096, 4096]⟩
abbrev S_ : Shape := ⟨0, ![]⟩

class Facts : Prop where
  bcast_S_S4096x16 : S_.BroadcastsInDim S4096x16 (![] : Fin 0 → Fin S4096x16.rank)
  reducesTo_S4096x16_S_d0_1 : S4096x16.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x16 .f32) (main_arg1 : FVec F S4096x4096 .f32) : IVec S_ 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_c : IVec S_ 1 := constantI S_ 1 1#1
  let main_v3 : IVec S_ 1 := (fun x v => Host.reduce IntOp.andi x v reducesTo_S4096x16_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x16 : Shape := ⟨2, ![4096, 16]⟩
abbrev S4096x4096 : Shape := ⟨2, ![4096, 4096]⟩
abbrev S512x4096 : Shape := ⟨2, ![512, 4096]⟩
abbrev S2x4096x16 : Shape := ⟨3, ![2, 4096, 16]⟩
abbrev S1x4096x16 : Shape := ⟨3, ![1, 4096, 16]⟩
abbrev S512x16 : Shape := ⟨2, ![512, 16]⟩
abbrev S1x512x16 : Shape := ⟨3, ![1, 512, 16]⟩

abbrev nBuf : Space → Nat
  | .hbm => 3
  | .vmem => 5
  | .smem => 0
  | _ => 0

abbrev bufTy : (tb : Table) → Fin (tcTables nBuf tb) → BufTy
  | .hbm, ⟨0, _⟩ => ⟨S4096x16, .f32⟩
  | .hbm, ⟨1, _⟩ => ⟨S4096x4096, .f32⟩
  | .hbm, ⟨2, _⟩ => ⟨S4096x16, .f32⟩
  | .local _ .vmem, ⟨0, _⟩ => ⟨S4096x16, .f32⟩
  | .local _ .vmem, ⟨1, _⟩ => ⟨S512x4096, .f32⟩
  | .local _ .vmem, ⟨2, _⟩ => ⟨S512x4096, .f32⟩
  | .local _ .vmem, ⟨3, _⟩ => ⟨S4096x16, .f32⟩
  | .local _ .vmem, ⟨4, _⟩ => ⟨S2x4096x16, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨2, ![20, 8], ![false, false]⟩

def k0_off1 (i : grid0.Coords) : Fin 3 → Nat :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v15 : Index := Scalar.indexCast v14
  let c0 : Index := 0#32
  let c0_6 : Index := 0#32
  ![v15.toNat, 0, 0]
def k0_off2 (i : grid0.Coords) : Fin 2 → Nat :=
  let arg1 : BitVec 32 := BitVec.ofNat 32 (i 1).val
  let c512_i32 : BitVec 32 := 512#32
  let v19 : BitVec 32 := Scalar.muli arg1 c512_i32
  let v20 : Index := Scalar.indexCast v19
  let c0_9 : Index := 0#32
  ![v20.toNat, 0]
def k0_off3 (i : grid0.Coords) : Fin 3 → Nat :=
  let arg0 : BitVec 32 := BitVec.ofNat 32 (i 0).val
  let c1_i32_14 : BitVec 32 := 1#32
  let v32 : BitVec 32 := Scalar.addi arg0 c1_i32_14
  let c2_i32_15 : BitVec 32 := 2#32
  let c0_i32_16 : BitVec 32 := 0#32
  let v33 : BitVec 1 := Scalar.cmpi .eq c2_i32_15 c0_i32_16
  let c1_i32_17 : BitVec 32 := 1#32
  let v34 : BitVec 32 := Scalar.select v33 c1_i32_17 c2_i32_15
  let v35 : BitVec 32 := Scalar.remsi v32 v34
  let c0_i32_19 : BitVec 32 := 0#32
  let v37 : BitVec 1 := Scalar.cmpi .slt v35 c0_i32_19
  let c0_i32_20 : BitVec 32 := 0#32
  let v38 : BitVec 1 := Scalar.cmpi .slt v34 c0_i32_20
  let v39 : BitVec 1 := Scalar.xori v37 v38
  let c0_i32_18 : BitVec 32 := 0#32
  let v36 : BitVec 1 := Scalar.cmpi .ne v35 c0_i32_18
  let v40 : BitVec 1 := Scalar.andi v39 v36
  let v41 : BitVec 32 := Scalar.addi v35 v34
  let v42 : BitVec 32 := Scalar.select v40 v41 v35
  let v44 : Index := Scalar.indexCast v42
  let arg1 : BitVec 32 := BitVec.ofNat 32 (i 1).val
  let c512_i32_21 : BitVec 32 := 512#32
  let v43 : BitVec 32 := Scalar.muli arg1 c512_i32_21
  let v45 : Index := Scalar.indexCast v43
  let c0_22 : Index := 0#32
  ![v44.toNat, v45.toNat, 0]
def k0_cond2 (i : grid0.Coords) : BitVec 1 :=
  let arg0 : BitVec 32 := BitVec.ofNat 32 (i 0).val
  let c19_i32 : BitVec 32 := 19#32
  let v49 : BitVec 1 := Scalar.cmpi .eq arg0 c19_i32
  let v50 : BitVec 32 := Scalar.extui v49
  let c0_i32_23 : BitVec 32 := 0#32
  let v51 : BitVec 1 := Scalar.cmpi .ne v50 c0_i32_23
  v51

def k0_off4 (i : grid0.Coords) : Fin 2 → Nat :=
  let arg1 : BitVec 32 := BitVec.ofNat 32 (i 1).val
  let c512_i32_24 : BitVec 32 := 512#32
  let v52 : BitVec 32 := Scalar.muli arg1 c512_i32_24
  let v53 : Index := Scalar.indexCast v52
  let c0_25 : Index := 0#32
  ![v53.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S4096x16_S4096x16_0_0 : ∀ a, (![0, 0] : Fin 2 → Nat) a + S4096x16.size a ≤ S4096x16.size a
  h_S4096x16 : 0 < S4096x16.numel
  inb_S2x4096x16_S1x4096x16_0_0_0 : ∀ a, (![0, 0, 0] : Fin 3 → Nat) a + S1x4096x16.size a ≤ S2x4096x16.size a
  h_S1x4096x16 : 0 < S1x4096x16.numel
  shapeCasts_S1x4096x16_S4096x16 : S1x4096x16.ShapeCasts S4096x16
  shapeCasts_S4096x16_S1x4096x16 : S4096x16.ShapeCasts S1x4096x16
  inb_S512x4096_S512x4096_0_0 : ∀ a, (![0, 0] : Fin 2 → Nat) a + S512x4096.size a ≤ S512x4096.size a
  h_S512x4096 : 0 < S512x4096.numel
  h_S512x16 : 0 < S512x16.numel
  h_S1x512x16 : 0 < S1x512x16.numel
  shapeCasts_S1x512x16_S512x16 : S1x512x16.ShapeCasts S512x16
  shapeCasts_S512x16_S1x512x16 : S512x16.ShapeCasts S1x512x16
  dot_S512x4096_S4096x16_S512x16_1_0_0_1_n_n_wf : DotDims.WF S512x4096 S4096x16 S512x16 [1] [0] [0] [1] [] []
  hrank0 : 0 < grid0.rank
  k0_off1_inb : ∀ i : grid0.Coords, ∀ a, (k0_off1 i) a + S1x4096x16.size a ≤ S2x4096x16.size a
  k0_off2_inb : ∀ i : grid0.Coords, ∀ a, (k0_off2 i) a + S512x16.size a ≤ S4096x16.size a
  k0_off3_inb : ∀ i : grid0.Coords, ∀ a, (k0_off3 i) a + S1x512x16.size a ≤ S2x4096x16.size a
  k0_off4_inb : ∀ i : grid0.Coords, ∀ (k0_h2 : k0_cond2 i = 1#1), ∀ a, (k0_off4 i) a + S512x16.size a ≤ S4096x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S4096x16.size a
  hwx0_0 : ∀ i : grid0.Coords, EltTy.bits .f32 = 32 ∨ (Rect.block (s := S4096x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4096x16.size a
  hwx0_2 : ∀ i : grid0.Coords, EltTy.bits .f32 = 32 ∨ (Rect.block (s := S4096x16) S4096x16.size (cc0_transform_2 i) (hinb0_2 i)).WholeWords (EltTy.packing .f32)

variable [Facts₀]

def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf

abbrev win0_0 : Pipeline.Window sig grid0 :=
  Pipeline.Window.ofSpec (Memref.whole main_arg0) S4096x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x16 : Shape := ⟨2, ![4096, 16]⟩
abbrev S4096x4096 : Shape := ⟨2, ![4096, 4096]⟩
abbrev S_ : Shape := ⟨0, ![]⟩

abbrev nBuf : Space → Nat
  | .hbm => 265
  | .vmem => 0
  | .smem => 0
  | _ => 0

abbrev hbmTy0_0 (i : Nat) : BufTy := match i % 128 with
  | 0 => ⟨S4096x16, .f32⟩
  | 1 => ⟨S4096x4096, .f32⟩
  | 2 => ⟨S_, .f32⟩
  | 3 => ⟨S4096x16, .f32⟩
  | 4 => ⟨S4096x16, .f32⟩
  | 5 => ⟨S4096x16, .f32⟩
  | 6 => ⟨S_, .f32⟩
  | 7 => ⟨S4096x16, .f32⟩
  | 8 => ⟨S4096x16, .f32⟩
  | 9 => ⟨S4096x16, .f32⟩
  | 10 => ⟨S_, .f32⟩
  | 11 => ⟨S_, .f32⟩
  | 12 => ⟨S_, .f32⟩
  | 13 => ⟨S4096x16, .f32⟩
  | 14 => ⟨S4096x16, .f32⟩
  | 15 => ⟨S_, .f32⟩
  | 16 => ⟨S4096x16, .f32⟩
  | 17 => ⟨S4096x16, .f32⟩
  | 18 => ⟨S4096x16, .f32⟩
  | 19 => ⟨S_, .f32⟩
  | 20 => ⟨S4096x16, .f32⟩
  | 21 => ⟨S4096x16, .f32⟩
  | 22 => ⟨S4096x16, .f32⟩
  | 23 => ⟨S_, .f32⟩
  | 24 => ⟨S_, .f32⟩
  | 25 => ⟨S_, .f32⟩
  | 26 => ⟨S4096x16, .f32⟩
  | 27 => ⟨S4096x16, .f32⟩
  | 28 => ⟨S_, .f32⟩
  | 29 => ⟨S4096x16, .f32⟩
  | 30 => ⟨S4096x16, .f32⟩
  | 31 => ⟨S4096x16, .f32⟩
  | 32 => ⟨S_, .f32⟩
  | 33 => ⟨S4096x16, .f32⟩
  | 34 => ⟨S4096x16, .f32⟩
  | 35 => ⟨S4096x16, .f32⟩
  | 36 => ⟨S_, .f32⟩
  | 37 => ⟨S_, .f32⟩
  | 38 => ⟨S_, .f32⟩
  | 39 => ⟨S4096x16, .f32⟩
  | 40 => ⟨S4096x16, .f32⟩
  | 41 => ⟨S_, .f32⟩
  | 42 => ⟨S4096x16, .f32⟩
  | 43 => ⟨S4096x16, .f32⟩
  | 44 => ⟨S4096x16, .f32⟩
  | 45 => ⟨S_, .f32⟩
  | 46 => ⟨S4096x16, .f32⟩
  | 47 => ⟨S4096x16, .f32⟩
  | 48 => ⟨S4096x16, .f32⟩
  | 49 => ⟨S_, .f32⟩
  | 50 => ⟨S_, .f32⟩
  | 51 => ⟨S_, .f32⟩
  | 52 => ⟨S4096x16, .f32⟩
  | 53 => ⟨S4096x16, .f32⟩
  | 54 => ⟨S_, .f32⟩
  | 55 => ⟨S4096x16, .f32⟩
  | 56 => ⟨S4096x16, .f32⟩
  | 57 => ⟨S4096x16, .f32⟩
  | 58 => ⟨S_, .f32⟩
  | 59 => ⟨S4096x16, .f32⟩
  | 60 => ⟨S4096x16, .f32⟩
  | 61 => ⟨S4096x16, .f32⟩
  | 62 => ⟨S_, .f32⟩
  | 63 => ⟨S_, .f32⟩
  | 64 => ⟨S_, .f32⟩
  | 65 => ⟨S4096x16, .f32⟩
  | 66 => ⟨S4096x16, .f32⟩
  | 67 => ⟨S_, .f32⟩
  | 68 => ⟨S4096x16, .f32⟩
  | 69 => ⟨S4096x16, .f32⟩
  | 70 => ⟨S4096x16, .f32⟩
  | 71 => ⟨S_, .f32⟩
  | 72 => ⟨S4096x16, .f32⟩
  | 73 => ⟨S4096x16, .f32⟩
  | 74 => ⟨S4096x16, .f32⟩
  | 75 => ⟨S_, .f32⟩
  | 76 => ⟨S_, .f32⟩
  | 77 => ⟨S_, .f32⟩
  | 78 => ⟨S4096x16, .f32⟩
  | 79 => ⟨S4096x16, .f32⟩
  | 80 => ⟨S_, .f32⟩
  | 81 => ⟨S4096x16, .f32⟩
  | 82 => ⟨S4096x16, .f32⟩
  | 83 => ⟨S4096x16, .f32⟩
  | 84 => ⟨S_, .f32⟩
  | 85 => ⟨S4096x16, .f32⟩
  | 86 => ⟨S4096x16, .f32⟩
  | 87 => ⟨S4096x16, .f32⟩
  | 88 => ⟨S_, .f32⟩
  | 89 => ⟨S_, .f32⟩
  | 90 => ⟨S_, .f32⟩
  | 91 => ⟨S4096x16, .f32⟩
  | 92 => ⟨S4096x16, .f32⟩
  | 93 => ⟨S_, .f32⟩
  | 94 => ⟨S4096x16, .f32⟩
  | 95 => ⟨S4096x16, .f32⟩
  | 96 => ⟨S4096x16, .f32⟩
  | 97 => ⟨S_, .f32⟩
  | 98 => ⟨S4096x16, .f32⟩
  | 99 => ⟨S4096x16, .f32⟩
  | 100 => ⟨S4096x16, .f32⟩
  | 101 => ⟨S_, .f32⟩
  | 102 => ⟨S_, .f32⟩
  | 103 => ⟨S_, .f32⟩
  | 104 => ⟨S4096x16, .f32⟩
  | 105 => ⟨S4096x16, .f32⟩
  | 106 => ⟨S_, .f32⟩
  | 107 => ⟨S4096x16, .f32⟩
  | 108 => ⟨S4096x16, .f32⟩
  | 109 => ⟨S4096x16, .f32⟩
  | 110 => ⟨S_, .f32⟩
  | 111 => ⟨S4096x16, .f32⟩
  | 112 => ⟨S4096x16, .f32⟩
  | 113 => ⟨S4096x16, .f32⟩
  | 114 => ⟨S_, .f32⟩
  | 115 => ⟨S_, .f32⟩
  | 116 => ⟨S_, .f32⟩
  | 117 => ⟨S4096x16, .f32⟩
  | 118 => ⟨S4096x16, .f32⟩
  | 119 => ⟨S_, .f32⟩
  | 120 => ⟨S4096x16, .f32⟩
  | 121 => ⟨S4096x16, .f32⟩
  | 122 => ⟨S4096x16, .f32⟩
  | 123 => ⟨S_, .f32⟩
  | 124 => ⟨S4096x16, .f32⟩
  | 125 => ⟨S4096x16, .f32⟩
  | 126 => ⟨S4096x16, .f32⟩
  | 127 => ⟨S_, .f32⟩
  | _ => ⟨S4096x16, .f32⟩

abbrev hbmTy0_1 (i : Nat) : BufTy := match i % 128 with
  | 0 => ⟨S_, .f32⟩
  | 1 => ⟨S_, .f32⟩
  | 2 => ⟨S4096x16, .f32⟩
  | 3 => ⟨S4096x16, .f32⟩
  | 4 => ⟨S_, .f32⟩
  | 5 => ⟨S4096x16, .f32⟩
  | 6 => ⟨S4096x16, .f32⟩
  | 7 => ⟨S4096x16, .f32⟩
  | 8 => ⟨S_, .f32⟩
  | 9 => ⟨S4096x16, .f32⟩
  | 10 => ⟨S4096x16, .f32⟩
  | 11 => ⟨S4096x16, .f32⟩
  | 12 => ⟨S_, .f32⟩
  | 13 => ⟨S_, .f32⟩
  | 14 => ⟨S_, .f32⟩
  | 15 => ⟨S4096x16, .f32⟩
  | 16 => ⟨S4096x16, .f32⟩
  | 17 => ⟨S_, .f32⟩
  | 18 => ⟨S4096x16, .f32⟩
  | 19 => ⟨S4096x16, .f32⟩
  | 20 => ⟨S4096x16, .f32⟩
  | 21 => ⟨S_, .f32⟩
  | 22 => ⟨S4096x16, .f32⟩
  | 23 => ⟨S4096x16, .f32⟩
  | 24 => ⟨S4096x16, .f32⟩
  | 25 => ⟨S_, .f32⟩
  | 26 => ⟨S_, .f32⟩
  | 27 => ⟨S_, .f32⟩
  | 28 => ⟨S4096x16, .f32⟩
  | 29 => ⟨S4096x16, .f32⟩
  | 30 => ⟨S_, .f32⟩
  | 31 => ⟨S4096x16, .f32⟩
  | 32 => ⟨S4096x16, .f32⟩
  | 33 => ⟨S4096x16, .f32⟩
  | 34 => ⟨S_, .f32⟩
  | 35 => ⟨S4096x16, .f32⟩
  | 36 => ⟨S4096x16, .f32⟩
  | 37 => ⟨S4096x16, .f32⟩
  | 38 => ⟨S_, .f32⟩
  | 39 => ⟨S_, .f32⟩
  | 40 => ⟨S_, .f32⟩
  | 41 => ⟨S4096x16, .f32⟩
  | 42 => ⟨S4096x16, .f32⟩
  | 43 => ⟨S_, .f32⟩
  | 44 => ⟨S4096x16, .f32⟩
  | 45 => ⟨S4096x16, .f32⟩
  | 46 => ⟨S4096x16, .f32⟩
  | 47 => ⟨S_, .f32⟩
  | 48 => ⟨S4096x16, .f32⟩
  | 49 => ⟨S4096x16, .f32⟩
  | 50 => ⟨S4096x16, .f32⟩
  | 51 => ⟨S_, .f32⟩
  | 52 => ⟨S_, .f32⟩
  | 53 => ⟨S_, .f32⟩
  | 54 => ⟨S4096x16, .f32⟩
  | 55 => ⟨S4096x16, .f32⟩
  | 56 => ⟨S_, .f32⟩
  | 57 => ⟨S4096x16, .f32⟩
  | 58 => ⟨S4096x16, .f32⟩
  | 59 => ⟨S4096x16, .f32⟩
  | 60 => ⟨S_, .f32⟩
  | 61 => ⟨S4096x16, .f32⟩
  | 62 => ⟨S4096x16, .f32⟩
  | 63 => ⟨S4096x16, .f32⟩
  | 64 => ⟨S_, .f32⟩
  | 65 => ⟨S_, .f32⟩
  | 66 => ⟨S_, .f32⟩
  | 67 => ⟨S4096x16, .f32⟩
  | 68 => ⟨S4096x16, .f32⟩
  | 69 => ⟨S_, .f32⟩
  | 70 => ⟨S4096x16, .f32⟩
  | 71 => ⟨S4096x16, .f32⟩
  | 72 => ⟨S4096x16, .f32⟩
  | 73 => ⟨S_, .f32⟩
  | 74 => ⟨S4096x16, .f32⟩
  | 75 => ⟨S4096x16, .f32⟩
  | 76 => ⟨S4096x16, .f32⟩
  | 77 => ⟨S_, .f32⟩
  | 78 => ⟨S_, .f32⟩
  | 79 => ⟨S_, .f32⟩
  | 80 => ⟨S4096x16, .f32⟩
  | 81 => ⟨S4096x16, .f32⟩
  | 82 => ⟨S_, .f32⟩
  | 83 => ⟨S4096x16, .f32⟩
  | 84 => ⟨S4096x16, .f32⟩
  | 85 => ⟨S4096x16, .f32⟩
  | 86 => ⟨S_, .f32⟩
  | 87 => ⟨S4096x16, .f32⟩
  | 88 => ⟨S4096x16, .f32⟩
  | 89 => ⟨S4096x16, .f32⟩
  | 90 => ⟨S_, .f32⟩
  | 91 => ⟨S_, .f32⟩
  | 92 => ⟨S_, .f32⟩
  | 93 => ⟨S4096x16, .f32⟩
  | 94 => ⟨S4096x16, .f32⟩
  | 95 => ⟨S_, .f32⟩
  | 96 => ⟨S4096x16, .f32⟩
  | 97 => ⟨S4096x16, .f32⟩
  | 98 => ⟨S4096x16, .f32⟩
  | 99 => ⟨S_, .f32⟩
  | 100 => ⟨S4096x16, .f32⟩
  | 101 => ⟨S4096x16, .f32⟩
  | 102 => ⟨S4096x16, .f32⟩
  | 103 => ⟨S_, .f32⟩
  | 104 => ⟨S_, .f32⟩
  | 105 => ⟨S_, .f32⟩
  | 106 => ⟨S4096x16, .f32⟩
  | 107 => ⟨S4096x16, .f32⟩
  | 108 => ⟨S_, .f32⟩
  | 109 => ⟨S4096x16, .f32⟩
  | 110 => ⟨S4096x16, .f32⟩
  | 111 => ⟨S4096x16, .f32⟩
  | 112 => ⟨S_, .f32⟩
  | 113 => ⟨S4096x16, .f32⟩
  | 114 => ⟨S4096x16, .f32⟩
  | 115 => ⟨S4096x16, .f32⟩
  | 116 => ⟨S_, .f32⟩
  | 117 => ⟨S_, .f32⟩
  | 118 => ⟨S_, .f32⟩
  | 119 => ⟨S4096x16, .f32⟩
  | 120 => ⟨S4096x16, .f32⟩
  | 121 => ⟨S_, .f32⟩
  | 122 => ⟨S4096x16, .f32⟩
  | 123 => ⟨S4096x16, .f32⟩
  | 124 => ⟨S4096x16, .f32⟩
  | 125 => ⟨S_, .f32⟩
  | 126 => ⟨S4096x16, .f32⟩
  | 127 => ⟨S4096x16, .f32⟩
  | _ => ⟨S4096x16, .f32⟩

abbrev hbmTy0_2 (i : Nat) : BufTy := match i % 128 with
  | 0 => ⟨S4096x16, .f32⟩
  | 1 => ⟨S_, .f32⟩
  | 2 => ⟨S_, .f32⟩
  | 3 => ⟨S_, .f32⟩
  | 4 => ⟨S4096x16, .f32⟩
  | 5 => ⟨S4096x16, .f32⟩
  | 6 => ⟨S_, .f32⟩
  | 7 => ⟨S4096x16, .f32⟩
  | 8 => ⟨S4096x16, .f32⟩
  | _ => ⟨S4096x16, .f32⟩

abbrev hbmTy (i : Nat) : BufTy := match i / 128 with
  | 0 => hbmTy0_0 i
  | 1 => hbmTy0_1 i
  | 2 => hbmTy0_2 i
  | _ => ⟨S4096x16, .f32⟩

abbrev bufTy : (tb : Table) → Fin (tcTables nBuf tb) → BufTy
  | .hbm, ⟨i, _⟩ => hbmTy i
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_cst_5 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v11 : Ref sig .tc := ⟨.hbm, 30, rfl⟩
abbrev main_v12 : Ref sig .tc := ⟨.hbm, 31, rfl⟩
abbrev main_cst_6 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_7 : Ref sig .tc := ⟨.hbm, 36, rfl⟩
abbrev main_cst_8 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v16 : Ref sig .tc := ⟨.hbm, 43, rfl⟩
abbrev main_v17 : Ref sig .tc := ⟨.hbm, 44, rfl⟩
abbrev main_cst_9 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_10 : Ref sig .tc := ⟨.hbm, 49, rfl⟩
abbrev main_cst_11 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v21 : Ref sig .tc := ⟨.hbm, 56, rfl⟩
abbrev main_v22 : Ref sig .tc := ⟨.hbm, 57, rfl⟩
abbrev main_cst_12 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_13 : Ref sig .tc := ⟨.hbm, 62, rfl⟩
abbrev main_cst_14 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_v26 : Ref sig .tc := ⟨.hbm, 69, rfl⟩
abbrev main_v27 : Ref sig .tc := ⟨.hbm, 70, rfl⟩
abbrev main_cst_15 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_16 : Ref sig .tc := ⟨.hbm, 75, rfl⟩
abbrev main_cst_17 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_v31 : Ref sig .tc := ⟨.hbm, 82, rfl⟩
abbrev main_v32 : Ref sig .tc := ⟨.hbm, 83, rfl⟩
abbrev main_cst_18 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_19 : Ref sig .tc := ⟨.hbm, 88, rfl⟩
abbrev main_cst_20 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_call6_v3 : Ref sig .tc := ⟨.hbm, 93, rfl⟩
abbrev main_call6_v4 : Ref sig .tc := ⟨.hbm, 94, rfl⟩
abbrev main_v36 : Ref sig .tc := ⟨.hbm, 95, rfl⟩
abbrev main_v37 : Ref sig .tc := ⟨.hbm, 96, rfl⟩
abbrev main_cst_21 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_cst_22 : Ref sig .tc := ⟨.hbm, 101, rfl⟩
abbrev main_cst_23 : Ref sig .tc := ⟨.hbm, 102, rfl⟩
abbrev main_call7_v0 : Ref sig .tc := ⟨.hbm, 103, rfl⟩
abbrev main_call7_v1 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_v41 : Ref sig .tc := ⟨.hbm, 108, rfl⟩
abbrev main_v42 : Ref sig .tc := ⟨.hbm, 109, rfl⟩
abbrev main_cst_24 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_cst_25 : Ref sig .tc := ⟨.hbm, 114, rfl⟩
abbrev main_cst_26 : Ref sig .tc := ⟨.hbm, 115, rfl⟩
abbrev main_call8_v0 : Ref sig .tc := ⟨.hbm, 116, rfl⟩
abbrev main_call8_v1 : Ref sig .tc := ⟨.hbm, 117, rfl⟩
abbrev main_call8_v2 : Ref sig .tc := ⟨.hbm, 118, rfl⟩
abbrev main_call8_v3 : Ref sig .tc := ⟨.hbm, 119, rfl⟩
abbrev main_call8_v4 : Ref sig .tc := ⟨.hbm, 120, rfl⟩
abbrev main_v46 : Ref sig .tc := ⟨.hbm, 121, rfl⟩
abbrev main_v47 : Ref sig .tc := ⟨.hbm, 122, rfl⟩
abbrev main_cst_27 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_cst_28 : Ref sig .tc := ⟨.hbm, 127, rfl⟩
abbrev main_cst_29 : Ref sig .tc := ⟨.hbm, 128, rfl⟩
abbrev main_call9_v0 : Ref sig .tc := ⟨.hbm, 129, rfl⟩
abbrev main_call9_v1 : Ref sig .tc := ⟨.hbm, 130, rfl⟩
abbrev main_call9_v2 : Ref sig .tc := ⟨.hbm, 131, rfl⟩
abbrev main_call9_v3 : Ref sig .tc := ⟨.hbm, 132, rfl⟩
abbrev main_call9_v4 : Ref sig .tc := ⟨.hbm, 133, rfl⟩
abbrev main_v51 : Ref sig .tc := ⟨.hbm, 134, rfl⟩
abbrev main_v52 : Ref sig .tc := ⟨.hbm, 135, rfl⟩
abbrev main_cst_30 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_cst_31 : Ref sig .tc := ⟨.hbm, 140, rfl⟩
abbrev main_cst_32 : Ref sig .tc := ⟨.hbm, 141, rfl⟩
abbrev main_call10_v0 : Ref sig .tc := ⟨.hbm, 142, rfl⟩
abbrev main_call10_v1 : Ref sig .tc := ⟨.hbm, 143, rfl⟩
abbrev main_call10_v2 : Ref sig .tc := ⟨.hbm, 144, rfl⟩
abbrev main_call10_v3 : Ref sig .tc := ⟨.hbm, 145, rfl⟩
abbrev main_call10_v4 : Ref sig .tc := ⟨.hbm, 146, rfl⟩
abbrev main_v56 : Ref sig .tc := ⟨.hbm, 147, rfl⟩
abbrev main_v57 : Ref sig .tc := ⟨.hbm, 148, rfl⟩
abbrev main_cst_33 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_cst_34 : Ref sig .tc := ⟨.hbm, 153, rfl⟩
abbrev main_cst_35 : Ref sig .tc := ⟨.hbm, 154, rfl⟩
abbrev main_call11_v0 : Ref sig .tc := ⟨.hbm, 155, rfl⟩
abbrev main_call11_v1 : Ref sig .tc := ⟨.hbm, 156, rfl⟩
abbrev main_call11_v2 : Ref sig .tc := ⟨.hbm, 157, rfl⟩
abbrev main_call11_v3 : Ref sig .tc := ⟨.hbm, 158, rfl⟩
abbrev main_call11_v4 : Ref sig .tc := ⟨.hbm, 159, rfl⟩
abbrev main_v61 : Ref sig .tc := ⟨.hbm, 160, rfl⟩
abbrev main_v62 : Ref sig .tc := ⟨.hbm, 161, rfl⟩
abbrev main_cst_36 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_cst_37 : Ref sig .tc := ⟨.hbm, 166, rfl⟩
abbrev main_cst_38 : Ref sig .tc := ⟨.hbm, 167, rfl⟩
abbrev main_call12_v0 : Ref sig .tc := ⟨.hbm, 168, rfl⟩
abbrev main_call12_v1 : Ref sig .tc := ⟨.hbm, 169, rfl⟩
abbrev main_call12_v2 : Ref sig .tc := ⟨.hbm, 170, rfl⟩
abbrev main_call12_v3 : Ref sig .tc := ⟨.hbm, 171, rfl⟩
abbrev main_call12_v4 : Ref sig .tc := ⟨.hbm, 172, rfl⟩
abbrev main_v66 : Ref sig .tc := ⟨.hbm, 173, rfl⟩
abbrev main_v67 : Ref sig .tc := ⟨.hbm, 174, rfl⟩
abbrev main_cst_39 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_cst_40 : Ref sig .tc := ⟨.hbm, 179, rfl⟩
abbrev main_cst_41 : Ref sig .tc := ⟨.hbm, 180, rfl⟩
abbrev main_call13_v0 : Ref sig .tc := ⟨.hbm, 181, rfl⟩
abbrev main_call13_v1 : Ref sig .tc := ⟨.hbm, 182, rfl⟩
abbrev main_call13_v2 : Ref sig .tc := ⟨.hbm, 183, rfl⟩
abbrev main_call13_v3 : Ref sig .tc := ⟨.hbm, 184, rfl⟩
abbrev main_call13_v4 : Ref sig .tc := ⟨.hbm, 185, rfl⟩
abbrev main_v71 : Ref sig .tc := ⟨.hbm, 186, rfl⟩
abbrev main_v72 : Ref sig .tc := ⟨.hbm, 187, rfl⟩
abbrev main_cst_42 : Ref sig .tc := ⟨.hbm, 188, rfl⟩
abbrev main_v73 : Ref sig .tc := ⟨.hbm, 189, rfl⟩
abbrev main_v74 : Ref sig .tc := ⟨.hbm, 190, rfl⟩
abbrev main_v75 : Ref sig .tc := ⟨.hbm, 191, rfl⟩
abbrev main_cst_43 : Ref sig .tc := ⟨.hbm, 192, rfl⟩
abbrev main_cst_44 : Ref sig .tc := ⟨.hbm, 193, rfl⟩
abbrev main_call14_v0 : Ref sig .tc := ⟨.hbm, 194, rfl⟩
abbrev main_call14_v1 : Ref sig .tc := ⟨.hbm, 195, rfl⟩
abbrev main_call14_v2 : Ref sig .tc := ⟨.hbm, 196, rfl⟩
abbrev main_call14_v3 : Ref sig .tc := ⟨.hbm, 197, rfl⟩
abbrev main_call14_v4 : Ref sig .tc := ⟨.hbm, 198, rfl⟩
abbrev main_v76 : Ref sig .tc := ⟨.hbm, 199, rfl⟩
abbrev main_v77 : Ref sig .tc := ⟨.hbm, 200, rfl⟩
abbrev main_cst_45 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_cst_46 : Ref sig .tc := ⟨.hbm, 205, rfl⟩
abbrev main_cst_47 : Ref sig .tc := ⟨.hbm, 206, rfl⟩
abbrev main_call15_v0 : Ref sig .tc := ⟨.hbm, 207, rfl⟩
abbrev main_call15_v1 : Ref sig .tc := ⟨.hbm, 208, rfl⟩
abbrev main_call15_v2 : Ref sig .tc := ⟨.hbm, 209, rfl⟩
abbrev main_call15_v3 : Ref sig .tc := ⟨.hbm, 210, rfl⟩
abbrev main_call15_v4 : Ref sig .tc := ⟨.hbm, 211, rfl⟩
abbrev main_v81 : Ref sig .tc := ⟨.hbm, 212, rfl⟩
abbrev main_v82 : Ref sig .tc := ⟨.hbm, 213, rfl⟩
abbrev main_cst_48 : Ref sig .tc := ⟨.hbm, 214, rfl⟩
abbrev main_v83 : Ref sig .tc := ⟨.hbm, 215, rfl⟩
abbrev main_v84 : Ref sig .tc := ⟨.hbm, 216, rfl⟩
abbrev main_v85 : Ref sig .tc := ⟨.hbm, 217, rfl⟩
abbrev main_cst_49 : Ref sig .tc := ⟨.hbm, 218, rfl⟩
abbrev main_cst_50 : Ref sig .tc := ⟨.hbm, 219, rfl⟩
abbrev main_call16_v0 : Ref sig .tc := ⟨.hbm, 220, rfl⟩
abbrev main_call16_v1 : Ref sig .tc := ⟨.hbm, 221, rfl⟩
abbrev main_call16_v2 : Ref sig .tc := ⟨.hbm, 222, rfl⟩
abbrev main_call16_v3 : Ref sig .tc := ⟨.hbm, 223, rfl⟩
abbrev main_call16_v4 : Ref sig .tc := ⟨.hbm, 224, rfl⟩
abbrev main_v86 : Ref sig .tc := ⟨.hbm, 225, rfl⟩
abbrev main_v87 : Ref sig .tc := ⟨.hbm, 226, rfl⟩
abbrev main_cst_51 : Ref sig .tc := ⟨.hbm, 227, rfl⟩
abbrev main_v88 : Ref sig .tc := ⟨.hbm, 228, rfl⟩
abbrev main_v89 : Ref sig .tc := ⟨.hbm, 229, rfl⟩
abbrev main_v90 : Ref sig .tc := ⟨.hbm, 230, rfl⟩
abbrev main_cst_52 : Ref sig .tc := ⟨.hbm, 231, rfl⟩
abbrev main_cst_53 : Ref sig .tc := ⟨.hbm, 232, rfl⟩
abbrev main_call17_v0 : Ref sig .tc := ⟨.hbm, 233, rfl⟩
abbrev main_call17_v1 : Ref sig .tc := ⟨.hbm, 234, rfl⟩
abbrev main_call17_v2 : Ref sig .tc := ⟨.hbm, 235, rfl⟩
abbrev main_call17_v3 : Ref sig .tc := ⟨.hbm, 236, rfl⟩
abbrev main_call17_v4 : Ref sig .tc := ⟨.hbm, 237, rfl⟩
abbrev main_v91 : Ref sig .tc := ⟨.hbm, 238, rfl⟩
abbrev main_v92 : Ref sig .tc := ⟨.hbm, 239, rfl⟩
abbrev main_cst_54 : Ref sig .tc := ⟨.hbm, 240, rfl⟩
abbrev main_v93 : Ref sig .tc := ⟨.hbm, 241, rfl⟩
abbrev main_v94 : Ref sig .tc := ⟨.hbm, 242, rfl⟩
abbrev main_v95 : Ref sig .tc := ⟨.hbm, 243, rfl⟩
abbrev main_cst_55 : Ref sig .tc := ⟨.hbm, 244, rfl⟩
abbrev main_cst_56 : Ref sig .tc := ⟨.hbm, 245, rfl⟩
abbrev main_call18_v0 : Ref sig .tc := ⟨.hbm, 246, rfl⟩
abbrev main_call18_v1 : Ref sig .tc := ⟨.hbm, 247, rfl⟩
abbrev main_call18_v2 : Ref sig .tc := ⟨.hbm, 248, rfl⟩
abbrev main_call18_v3 : Ref sig .tc := ⟨.hbm, 249, rfl⟩
abbrev main_call18_v4 : Ref sig .tc := ⟨.hbm, 250, rfl⟩
abbrev main_v96 : Ref sig .tc := ⟨.hbm, 251, rfl⟩
abbrev main_v97 : Ref sig .tc := ⟨.hbm, 252, rfl⟩
abbrev main_cst_57 : Ref sig .tc := ⟨.hbm, 253, rfl⟩
abbrev main_v98 : Ref sig .tc := ⟨.hbm, 254, rfl⟩
abbrev main_v99 : Ref sig .tc := ⟨.hbm, 255, rfl⟩
abbrev main_v100 : Ref sig .tc := ⟨.hbm, 256, rfl⟩
abbrev main_cst_58 : Ref sig .tc := ⟨.hbm, 257, rfl⟩
abbrev main_cst_59 : Ref sig .tc := ⟨.hbm, 258, rfl⟩
abbrev main_call19_v0 : Ref sig .tc := ⟨.hbm, 259, rfl⟩
abbrev main_call19_v1 : Ref sig .tc := ⟨.hbm, 260, rfl⟩
abbrev main_call19_v2 : Ref sig .tc := ⟨.hbm, 261, rfl⟩
abbrev main_call19_v3 : Ref sig .tc := ⟨.hbm, 262, rfl⟩
abbrev main_call19_v4 : Ref sig .tc := ⟨.hbm, 263, rfl⟩
abbrev main_v101 : Ref sig .tc := ⟨.hbm, 264, rfl⟩

abbrev nD : Nat := 1
abbrev τ : Topo := Topo.v7x

variable {F : FTy → Type} [FloatOps F]

class Facts₀ : Prop where
  bcast_S_S4096x16 : S_.BroadcastsInDim S4096x16 (![] : Fin 0 → Fin S4096x16.rank)
  dot_S4096x4096_S4096x16_S4096x16_1_0_0_1_n_n_wf : DotDims.WF S4096x4096 S4096x16 S4096x16 [1] [0] [0] [1] [] []

variable [Facts₀]

def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf

class Facts : Prop extends Facts₀ where

variable [Facts]
-- ==== Proof.K.Sched.lean ====
import proofs.«174310_g75393855914571_cont_9to1_m_809_4_alg».proof.Proof.Gen.Kernel.Frame
import proofs.«174310_g75393855914571_cont_9to1_m_809_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule in closed form

A grid point `t` of the 20 × 8 grid is layer `t / 8`, row block `t % 8`. The label state is copied into the
first half of the scratch at the very first point only; the result is emitted during the last layer only; layer
`l` reads half `l % 2` of the scratch and writes rows `512·(t % 8) …` of half `(l + 1) % 2`. -/

/-- The condition of the copy-in branch: layer 0 and row block 0. -/
abbrev condInit (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the emitting branch: the last layer. -/
abbrev condEmit (i : grid0.Coords) : Prop := k0_cond2 i = 1#1

theorem hcondInit : ∀ t : Fin cfg0.N, condInit (grid0.coords t) ↔ t.val = 0 :=
  (by decide +kernel : ∀ t : Fin grid0.N, condInit (grid0.coords t) ↔ t.val = 0)
theorem hcondEmit : ∀ t : Fin cfg0.N, condEmit (grid0.coords t) ↔ 152 ≤ t.val :=
  (by decide +kernel : ∀ t : Fin grid0.N, condEmit (grid0.coords t) ↔ 152 ≤ t.val)

theorem off1_eq : ∀ t : Fin cfg0.N, k0_off1 (grid0.coords t) = ![(t.val / 8) % 2, 0, 0] :=
  (by decide +kernel : ∀ t : Fin grid0.N, k0_off1 (grid0.coords t) = ![(t.val / 8) % 2, 0, 0])
theorem off2_eq : ∀ t : Fin cfg0.N, k0_off2 (grid0.coords t) = ![512 * (t.val % 8), 0] :=
  (by decide +kernel : ∀ t : Fin grid0.N, k0_off2 (grid0.coords t) = ![512 * (t.val % 8), 0])
theorem off3_eq : ∀ t : Fin cfg0.N, k0_off3 (grid0.coords t) = ![(t.val / 8 + 1) % 2, 512 * (t.val % 8), 0] :=
  (by decide +kernel : ∀ t : Fin grid0.N, k0_off3 (grid0.coords t) = ![(t.val / 8 + 1) % 2, 512 * (t.val % 8), 0])
theorem off4_eq : ∀ t : Fin cfg0.N, k0_off4 (grid0.coords t) = ![512 * (t.val % 8), 0] :=
  (by decide +kernel : ∀ t : Fin grid0.N, k0_off4 (grid0.coords t) = ![512 * (t.val % 8), 0])

/-- The same offsets as instances, for reading a rectangle's place against another's. -/
instance closedOff1 (t : Fin cfg0.N) : ClosedOff (k0_off1 (grid0.coords t)) := ⟨![(t.val / 8) % 2, 0, 0], off1_eq t⟩
instance closedOff3 (t : Fin cfg0.N) : ClosedOff (k0_off3 (grid0.coords t)) := ⟨![(t.val / 8 + 1) % 2, 512 * (t.val % 8), 0], off3_eq t⟩

/-- The offsets and the windows' block indices, coordinate by coordinate. -/
theorem off_facts : ∀ t : Fin cfg0.N,
    k0_off1 (grid0.coords t) (0 : Fin 3) = (t.val / 8) % 2 ∧ k0_off1 (grid0.coords t) (1 : Fin 3) = 0 ∧ k0_off1 (grid0.coords t) (2 : Fin 3) = 0
    ∧ k0_off2 (grid0.coords t) (0 : Fin 2) = 512 * (t.val % 8) ∧ k0_off2 (grid0.coords t) (1 : Fin 2) = 0
    ∧ k0_off3 (grid0.coords t) (0 : Fin 3) = (t.val / 8 + 1) % 2 ∧ k0_off3 (grid0.coords t) (1 : Fin 3) = 512 * (t.val % 8) ∧ k0_off3 (grid0.coords t) (2 : Fin 3) = 0
    ∧ k0_off4 (grid0.coords t) (0 : Fin 2) = 512 * (t.val % 8) ∧ k0_off4 (grid0.coords t) (1 : Fin 2) = 0 :=
  (by decide +kernel : ∀ t : Fin grid0.N, _)

theorem idx_facts : ∀ t : Fin cfg0.N,
    win0_0.index t (0 : Fin 2) = 0 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = 0 :=
  (by decide +kernel : ∀ t : Fin grid0.N, _)

theorem index0_eq : ∀ t : Fin cfg0.N, win0_0.index t = ![0, 0] :=
  (by decide +kernel : ∀ t : Fin grid0.N, win0_0.index t = ![0, 0])
theorem index1_eq : ∀ t : Fin cfg0.N, win0_1.index t = ![t.val % 8, 0] :=
  (by decide +kernel : ∀ t : Fin grid0.N, win0_1.index t = ![t.val % 8, 0])
theorem index2_eq : ∀ t : Fin cfg0.N, win0_2.index t = ![0, 0] :=
  (by decide +kernel : ∀ t : Fin grid0.N, win0_2.index t = ![0, 0])

end Cert.Kernel.Gen

end
-- ==== Proof.K.Runs.lean ====
import proofs.«174310_g75393855914571_cont_9to1_m_809_4_alg».proof.Proof.K.Sched
import proofs.«174310_g75393855914571_cont_9to1_m_809_4_alg».proof.Proof.Gen.Kernel.Frame
import proofs.«174310_g75393855914571_cont_9to1_m_809_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at one grid point, in its three control cases

The body is handed four whole memrefs: the label window `y` (never written), the window of 512 adjacency rows
(never written), the output window and the two-slot scratch. It runs without a fault whatever they hold. What it
leaves: the inputs as they were; in the scratch, one store of 512 rows into the slot the layer writes (after, at the
very first point only, a store of `y` into slot 0); in the output window nothing, except during the last layer,
where the same 512 rows are stored at their place. Each case records the stores as a list of pieces, last store
first, over the contents the memref held before. -/

set_option maxHeartbeats 1000000 in
/-- The first point (layer 0, row block 0): the copy-in branch is taken, the emitting branch is not. The layer reads
    slot 0, which the copy-in has just filled, and writes rows 0 … 511 of slot 1. -/
noncomputable def kernelRun_A (c : Dev nD) (t : Fin cfg0.N) (ht : t.val = 0) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : condInit (grid0.coords t)) (hc1 : ¬condEmit (grid0.coords t))
    (x0 : Vec F S4096x16 .f32) (x1 : Vec F S512x4096 .f32) (xs : Vec F S2x4096x16 .f32) :
    { LS : List (View.Piece (Elt F) S2x4096x16 .f32) //
      ∀ (xi2 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (arg5.view.loc (c : Thread nD τ) ↦[arg5.view.set]{fullShare} arg5.view.writes (Elt F) (harg5.unread xs) LS)) -∗ K ⟨⟩))
          ⊢ wp frame (wpE (defs₀ (F := F)) Variants.none c none) E (cc0__lp_body (grid0.coords t) arg2 harg2 arg3 harg3 arg4 harg4 arg5 harg5) K } := by
  refine ⟨?_, fun xi2 E K => ?run⟩
  case run =>
    simp only [cc0__lp_body_eq_skeleton]; unfold cc0__lp_body_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

set_option maxHeartbeats 1000000 in
/-- A point of layers 0 … 18 other than the first: neither branch is taken. -/
noncomputable def kernelRun_B (c : Dev nD) (i : grid0.Coords) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : ¬condInit i) (hc1 : ¬condEmit i)
    (x0 : Vec F S4096x16 .f32) (x1 : Vec F S512x4096 .f32) (xs : Vec F S2x4096x16 .f32) :
    { LS : List (View.Piece (Elt F) S2x4096x16 .f32) //
      ∀ (xi2 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (arg5.view.loc (c : Thread nD τ) ↦[arg5.view.set]{fullShare} arg5.view.writes (Elt F) (harg5.unread xs) LS)) -∗ K ⟨⟩))
          ⊢ wp frame (wpE (defs₀ (F := F)) Variants.none c none) E (cc0__lp_body i arg2 harg2 arg3 harg3 arg4 harg4 arg5 harg5) K } := by
  refine ⟨?_, fun xi2 E K => ?run⟩
  case run =>
    simp only [cc0__lp_body_eq_skeleton]; unfold cc0__lp_body_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

set_option maxHeartbeats 1000000 in
/-- A point of the last layer: the emitting branch is taken, and the output window receives a store as well. -/
noncomputable def kernelRun_C (c : Dev nD) (i : grid0.Coords) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : ¬condInit i) (hc1 : condEmit i)
    (x0 : Vec F S4096x16 .f32) (x1 : Vec F S512x4096 .f32) (xi2 : Vec F S4096x16 .f32) (xs : Vec F S2x4096x16 .f32) :
    Σ' (L2 : List (View.Piece (Elt F) S4096x16 .f32)), { LS : List (View.Piece (Elt F) S2x4096x16 .f32) //
      ∀ (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xi2) L2) ∗ (arg5.view.loc (c : Thread nD τ) ↦[arg5.view.set]{fullShare} arg5.view.writes (Elt F) (harg5.unread xs) LS)) -∗ K ⟨⟩))
          ⊢ wp frame (wpE (defs₀ (F := F)) Variants.none c none) E (cc0__lp_body i arg2 harg2 arg3 harg3 arg4 harg4 arg5 harg5) K } := by
  refine ⟨?_, ?_, fun E K => ?run⟩
  case run =>
    simp only [cc0__lp_body_eq_skeleton]; unfold cc0__lp_body_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexact H2
    iexact HS

end Cert.Kernel.Gen

end
-- ==== Proof.K.Spec.lean ====
import proofs.«174310_g75393855914571_cont_9to1_m_809_4_alg».proof.Proof.Gen.Kernel.Skeleton
import Idealize.ShloMosaic.Lib.ValueIdx

noncomputable section

/-! ## Label propagation, one layer at a time

The state is a 4096 × 16 array of labels. One layer replaces the state `o` by
`clip (½ · (adj · o) + ½ · y) 0 1`; the kernel computes a layer in eight blocks of 512 rows, block `b` from the
whole previous state, rows `512·b … 512·b + 511` of the adjacency matrix and the same rows of `y`. `kstep` is
that layer as the body's arithmetic spells it (the payload `k0_pay3`), `klayer l` the state after `l` layers. -/

namespace Cert.Kernel.LP

open Idealize.ShloMosaic Idealize.ShloMosaic.ValueIdx Cert.Kernel Cert.Kernel.Gen

variable {F : FTy → Type} [FloatOps F]

/-- A label array seen as one half of the two-slot scratch: a leading axis of extent one. -/
def slab (o : Vec F S4096x16 .f32) : Vec F S1x4096x16 .f32 := fun z => o (ix2 (z 1) (z 2))

theorem blk_row_lt {b p : ℕ} (hb : b < 8) (hp : p < 512) : 512 * b + p < 4096 := by omega

/-- Rows `512·b …` of the adjacency matrix. -/
def adjBlk (adj : Vec F S4096x4096 .f32) (b : Fin 8) : Vec F S512x4096 .f32 :=
  fun z => adj (ix2 (⟨512 * b.val + (z 0).val, blk_row_lt b.isLt (z 0).isLt⟩ : Fin 4096) (z 1))

/-- Rows `512·b …` of a label array. -/
def rowBlk (y : Vec F S4096x16 .f32) (b : Fin 8) : Vec F S512x16 .f32 :=
  fun z => y (ix2 (⟨512 * b.val + (z 0).val, blk_row_lt b.isLt (z 0).isLt⟩ : Fin 4096) (z 1))

theorem row_div_lt {r : ℕ} (hr : r < 4096) : r / 512 < 8 := by omega
theorem row_mod_lt (r : ℕ) : r % 512 < 512 := Nat.mod_lt _ (by decide)

/-- One layer, as the kernel's arithmetic computes it block by block. -/
def kstep (y : Vec F S4096x16 .f32) (adj : Vec F S4096x4096 .f32) (o : Vec F S4096x16 .f32) : Vec F S4096x16 .f32 :=
  fun j => k0_pay3 (slab o) (adjBlk adj ⟨(j 0).val / 512, row_div_lt (j 0).isLt⟩) (rowBlk y ⟨(j 0).val / 512, row_div_lt (j 0).isLt⟩)
    (ix2 (⟨(j 0).val % 512, row_mod_lt _⟩ : Fin 512) (j 1))

/-- The state after `l` layers. -/
def klayer (y : Vec F S4096x16 .f32) (adj : Vec F S4096x4096 .f32) : ℕ → Vec F S4096x16 .f32
  | 0 => y
  | l + 1 => kstep y adj (klayer y adj l)

theorem klayer_zero (y : Vec F S4096x16 .f32) (adj : Vec F S4096x4096 .f32) : klayer y adj 0 = y := rfl
theorem klayer_succ (y : Vec F S4096x16 .f32) (adj : Vec F S4096x4096 .f32) (l : ℕ) :
    klayer y adj (l + 1) = kstep y adj (klayer y adj l) := rfl

end Cert.Kernel.LP

end
-- ==== Proof.K.Blocks.lean ====
import proofs.«174310_g75393855914571_cont_9to1_m_809_4_alg».proof.Proof.K.Sched
import proofs.«174310_g75393855914571_cont_9to1_m_809_4_alg».proof.Proof.K.Spec
import Idealize.ShloMosaic.Lib.ValueLayout
import Idealize.ShloMosaic.Lib.Pipeline.Value
import proofs.«174310_g75393855914571_cont_9to1_m_809_4_alg».proof.Proof.Gen.Kernel.Frame
import proofs.«174310_g75393855914571_cont_9to1_m_809_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The arrays, their blocks, and the scratch between points

Point `n` of the grid is layer `n / 8`, row block `n % 8`. Write `L l` for the label state after `l` layers.
BEFORE point `n` (when `n > 0`) slot `(n/8) % 2` of the scratch holds `L (n/8)` in all its rows, and the other
slot holds `L (n/8 + 1)` in its first `512 · (n % 8)` rows; AFTER point `n` the same with `512 · (n % 8 + 1)` rows.
The point computes rows `512·(n%8) …` of `L (n/8 + 1)` from the full slot and stores them into the other one. -/

/-- The label array `y` and the adjacency matrix as the region finds them. -/
def yArr (c : Dev nD) : Vec F S4096x16 .f32 := V m c main_arg0
def adjArr (c : Dev nD) : Vec F S4096x4096 .f32 := V m c main_arg1

/-- The label state after `l` layers. -/
def KL (c : Dev nD) (l : ℕ) : Vec F S4096x16 .f32 := LP.klayer (yArr m c) (adjArr m c) l

/-- The window of `y` is the whole array at every point. -/
theorem iblk0_eq (c : Dev nD) (t : Fin cfg0.N) : iblk m c 0 t = yArr m c := by
  funext j
  show V m c main_arg0 (((cfg0.win 0).blk t).view.emb j) = V m c main_arg0 j
  obtain ⟨e0, e1, -⟩ := idx_facts t
  have h : ((cfg0.win 0).blk t).view.emb j = j := by
    funext a; apply Fin.ext
    match a with
    | ⟨0, _⟩ => show win0_0.index t (0 : Fin 2) * 4096 + 1 * (j 0).val = (j 0).val; omega
    | ⟨1, _⟩ => show win0_0.index t (1 : Fin 2) * 16 + 1 * (j 1).val = (j 1).val; omega
  rw [h]

theorem mod8_lt (n : ℕ) : n % 8 < 8 := Nat.mod_lt _ (by decide)

/-- The adjacency window at point `t` is rows `512 · (t % 8) …` of the matrix. -/
theorem iblk1_eq (c : Dev nD) (t : Fin cfg0.N) : iblk m c 1 t = LP.adjBlk (adjArr m c) ⟨t.val % 8, mod8_lt _⟩ := by
  funext j
  show V m c main_arg1 (((cfg0.win 1).blk t).view.emb j) = V m c main_arg1 _
  obtain ⟨-, -, e2, e3, -⟩ := idx_facts t
  refine congrArg (V m c main_arg1) ?_
  funext a; apply Fin.ext
  match a with
  | ⟨0, _⟩ => show win0_1.index t (0 : Fin 2) * 512 + 1 * (j 0).val = 512 * (t.val % 8) + (j 0).val; omega
  | ⟨1, _⟩ => show win0_1.index t (1 : Fin 2) * 4096 + 1 * (j 1).val = (j 1).val; omega

/-- The scratch before point `n`. -/
def SBefore (c : Dev nD) (n : ℕ) (d : Vec F S2x4096x16 .f32) : Prop :=
  (∀ z : S2x4096x16.Idx, (z 0).val = (n / 8) % 2 → d z = KL m c (n / 8) (ix2 (z 1) (z 2))) ∧
  (∀ z : S2x4096x16.Idx, (z 0).val = (n / 8 + 1) % 2 → (z 1).val < 512 * (n % 8) → d z = KL m c (n / 8 + 1) (ix2 (z 1) (z 2)))

/-- The scratch after point `n`. -/
def SAfter (c : Dev nD) (n : ℕ) (d : Vec F S2x4096x16 .f32) : Prop :=
  (∀ z : S2x4096x16.Idx, (z 0).val = (n / 8) % 2 → d z = KL m c (n / 8) (ix2 (z 1) (z 2))) ∧
  (∀ z : S2x4096x16.Idx, (z 0).val = (n / 8 + 1) % 2 → (z 1).val < 512 * (n % 8 + 1) → d z = KL m c (n / 8 + 1) (ix2 (z 1) (z 2)))

/-- What point `n` leaves is what point `n + 1` needs: within a layer one more block of the new state is there; at a
    layer's last block the new state is complete and becomes the one read. -/
theorem sbefore_succ (c : Dev nD) (n : ℕ) (d : Vec F S2x4096x16 .f32) (h : SAfter m c n d) : SBefore m c (n + 1) d := by
  obtain ⟨h1, h2⟩ := h
  by_cases hb : n % 8 = 7
  · have e1 : (n + 1) / 8 = n / 8 + 1 := by omega
    have e2 : (n + 1) % 8 = 0 := by omega
    refine ⟨fun z hz => ?_, fun z hz hlt => ?_⟩
    · rw [e1] at hz ⊢
      have hz1 : (z 1).val < 4096 := (z 1).isLt
      exact h2 z hz (by omega)
    · rw [e2] at hlt; omega
  · have e1 : (n + 1) / 8 = n / 8 := by omega
    have e2 : (n + 1) % 8 = n % 8 + 1 := by omega
    refine ⟨fun z hz => ?_, fun z hz hlt => ?_⟩
    · rw [e1] at hz ⊢; exact h1 z hz
    · rw [e1] at hz ⊢; rw [e2] at hlt; exact h2 z hz hlt

/-! ### The three loads of a point -/

/-- The slot the layer reads, loaded whole, is the current state. -/
theorem ld_slab (c : Dev nD) (t : Fin cfg0.N) (xs : Vec F S2x4096x16 .f32)
    (h : ∀ z : S2x4096x16.Idx, (z 0).val = (t.val / 8) % 2 → xs z = KL m c (t.val / 8) (ix2 (z 1) (z 2))) :
    View.ld xs (Rect.unit (s := S2x4096x16) (k0_off1 (grid0.coords t)) S1x4096x16.size (k0_off1_inb (grid0.coords t)))
      = LP.slab (KL m c (t.val / 8)) := by
  funext z
  obtain ⟨o0, o1, o2, -⟩ := off_facts t
  have hz0 : (z 0).val < 1 := (z 0).isLt
  show xs ((Rect.unit (s := S2x4096x16) (k0_off1 (grid0.coords t)) S1x4096x16.size (k0_off1_inb (grid0.coords t))).idx z) = _
  rw [h _ (by show k0_off1 (grid0.coords t) (0 : Fin 3) + 1 * (z 0).val = _; omega)]
  show KL m c (t.val / 8) _ = KL m c (t.val / 8) (ix2 (z 1) (z 2))
  refine congrArg (KL m c (t.val / 8)) ?_
  funext a; apply Fin.ext
  match a with
  | ⟨0, _⟩ => show k0_off1 (grid0.coords t) (1 : Fin 3) + 1 * (z 1).val = (z 1).val; omega
  | ⟨1, _⟩ => show k0_off1 (grid0.coords t) (2 : Fin 3) + 1 * (z 2).val = (z 2).val; omega

/-- The rows of `y` the point loads are its row block. -/
theorem ld_rows (c : Dev nD) (t : Fin cfg0.N) :
    View.ld (yArr m c) (Rect.unit (s := S4096x16) (k0_off2 (grid0.coords t)) S512x16.size (k0_off2_inb (grid0.coords t)))
      = LP.rowBlk (yArr m c) ⟨t.val % 8, mod8_lt _⟩ := by
  funext z
  obtain ⟨-, -, -, o0, o1, -⟩ := off_facts t
  show yArr m c _ = yArr m c _
  refine congrArg (yArr m c) ?_
  funext a; apply Fin.ext
  match a with
  | ⟨0, _⟩ => show k0_off2 (grid0.coords t) (0 : Fin 2) + 1 * (z 0).val = 512 * (t.val % 8) + (z 0).val; omega
  | ⟨1, _⟩ => show k0_off2 (grid0.coords t) (1 : Fin 2) + 1 * (z 1).val = (z 1).val; omega

theorem hz2 : (![0, 0] : Fin 2 → Nat) = fun _ => 0 := funext fun a => by fin_cases a <;> rfl

/-- One layer at row `512·b + p` is the body's arithmetic on block `b` at row `p`. -/
theorem kstep_at (y : Vec F S4096x16 .f32) (adj : Vec F S4096x4096 .f32) (o : Vec F S4096x16 .f32) (b : Fin 8) (p : Fin 512) (q : Fin 16) :
    LP.kstep y adj o (ix2 (⟨512 * b.val + p.val, LP.blk_row_lt b.isLt p.isLt⟩ : Fin 4096) q)
      = k0_pay3 (LP.slab o) (LP.adjBlk adj b) (LP.rowBlk y b) (ix2 p q) := by
  have key : ∀ (b' : Fin 8) (p' : Fin 512), b' = b → p' = p →
      k0_pay3 (LP.slab o) (LP.adjBlk adj b') (LP.rowBlk y b') (ix2 p' q) = k0_pay3 (LP.slab o) (LP.adjBlk adj b) (LP.rowBlk y b) (ix2 p q) := by
    rintro _ _ rfl rfl; rfl
  exact key _ _ (Fin.ext (by show (512 * b.val + p.val) / 512 = b.val; have := p.isLt; omega))
    (Fin.ext (by show (512 * b.val + p.val) % 512 = p.val; have := p.isLt; omega))

/-- What a point computes: rows `512 · (t % 8) …` of the next state, from a scratch holding the current one. -/
theorem new_eq (c : Dev nD) (t : Fin cfg0.N) (xs : Vec F S2x4096x16 .f32)
    (h : ∀ z : S2x4096x16.Idx, (z 0).val = (t.val / 8) % 2 → xs z = KL m c (t.val / 8) (ix2 (z 1) (z 2)))
    (p : Fin 512) (q : Fin 16) :
    k0_pay3 (View.ld xs (Rect.unit (s := S2x4096x16) (k0_off1 (grid0.coords t)) S1x4096x16.size (k0_off1_inb (grid0.coords t))))
        (View.ld (iblk m c 1 t) (Rect.unit (s := S512x4096) ![0, 0] S512x4096.size inb_S512x4096_S512x4096_0_0))
        (View.ld (iblk m c 0 t) (Rect.unit (s := S4096x16) (k0_off2 (grid0.coords t)) S512x16.size (k0_off2_inb (grid0.coords t))))
        (ix2 p q)
      = KL m c (t.val / 8 + 1) (ix2 (⟨512 * (t.val % 8) + p.val, LP.blk_row_lt (mod8_lt _) p.isLt⟩ : Fin 4096) q) := by
  rw [ld_slab m c t xs h, View.ld_unit_zero (S := S512x4096) hz2, iblk0_eq, ld_rows, iblk1_eq]
  exact (kstep_at (yArr m c) (adjArr m c) (KL m c (t.val / 8)) ⟨t.val % 8, mod8_lt _⟩ p q).symm

end Cert.Kernel.Gen

end
-- ==== Proof.K.Store.lean ====
import proofs.«174310_g75393855914571_cont_9to1_m_809_4_alg».proof.Proof.K.Blocks
import proofs.«174310_g75393855914571_cont_9to1_m_809_4_alg».proof.Proof.Gen.Kernel.Frame
import proofs.«174310_g75393855914571_cont_9to1_m_809_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## What the point's stores leave

The 512 new rows go into the slot the layer writes, at rows `512 · (t % 8) …`; everything else of the scratch is
as before. During the last layer the same rows go into the output window at the same rows. -/

/-- The rectangle of the scratch the point stores into. -/
abbrev R3 (t : Fin cfg0.N) : Rect S2x4096x16 :=
  Rect.unit (s := S2x4096x16) (k0_off3 (grid0.coords t)) S1x512x16.size (k0_off3_inb (grid0.coords t))

/-- The stored value is the new rows with a leading axis of extent one. -/
theorem pay1_apply (v : FVec F S512x16 .f32) (u : Fin 1) (p : Fin 512) (q : Fin 16) : k0_pay1 v (ix3 u p q) = v (ix2 p q) := by
  unfold k0_pay1
  exact shapeCast_ab_1ab_apply v _ u p q

theorem mem_R3 (t : Fin cfg0.N) (z : S2x4096x16.Idx) :
    z ∈ (R3 t).set ↔ (z 0).val = (t.val / 8 + 1) % 2 ∧ 512 * (t.val % 8) ≤ (z 1).val ∧ (z 1).val < 512 * (t.val % 8) + 512 := by
  obtain ⟨-, -, -, -, -, o0, o1, o2, -⟩ := off_facts t
  rw [Rect.mem_set_unit]
  constructor
  · intro h
    have a0 : k0_off3 (grid0.coords t) (0 : Fin 3) ≤ (z 0).val ∧ (z 0).val < k0_off3 (grid0.coords t) (0 : Fin 3) + 1 := h 0
    have a1 : k0_off3 (grid0.coords t) (1 : Fin 3) ≤ (z 1).val ∧ (z 1).val < k0_off3 (grid0.coords t) (1 : Fin 3) + 512 := h 1
    omega
  · rintro ⟨h0, h1, h2⟩ a
    match a with
    | ⟨0, _⟩ => show k0_off3 (grid0.coords t) (0 : Fin 3) ≤ (z 0).val ∧ (z 0).val < k0_off3 (grid0.coords t) (0 : Fin 3) + 1; omega
    | ⟨1, _⟩ => show k0_off3 (grid0.coords t) (1 : Fin 3) ≤ (z 1).val ∧ (z 1).val < k0_off3 (grid0.coords t) (1 : Fin 3) + 512; omega
    | ⟨2, _⟩ => show k0_off3 (grid0.coords t) (2 : Fin 3) ≤ (z 2).val ∧ (z 2).val < k0_off3 (grid0.coords t) (2 : Fin 3) + 16; have hz2 : (z 2).val < 16 := (z 2).isLt; omega

/-- From the scratch before the point's store to the scratch after it. -/
theorem safter_of_store (c : Dev nD) (t : Fin cfg0.N) (xsL d' : Vec F S2x4096x16 .f32) (new : FVec F S512x16 .f32)
    (hB : SBefore m c t.val xsL)
    (hnew : ∀ (p : Fin 512) (q : Fin 16), new (ix2 p q)
      = KL m c (t.val / 8 + 1) (ix2 (⟨512 * (t.val % 8) + p.val, LP.blk_row_lt (mod8_lt _) p.isLt⟩ : Fin 4096) q))
    (hin : ∀ x : S1x512x16.Idx, d' ((R3 t).emb x) = k0_pay1 new x)
    (hout : ∀ z : S2x4096x16.Idx, z ∉ (R3 t).set → d' z = xsL z) : SAfter m c t.val d' := by
  obtain ⟨-, -, -, -, -, o0, o1, o2, -⟩ := off_facts t
  refine ⟨fun z hz => ?_, fun z hz hlt => ?_⟩
  · rw [hout z (by rw [mem_R3]; omega)]; exact hB.1 z hz
  · by_cases hlo : (z 1).val < 512 * (t.val % 8)
    · rw [hout z (by rw [mem_R3]; omega)]; exact hB.2 z hz hlo
    · have hz2 : (z 2).val < 16 := (z 2).isLt
      have hzz : z = (R3 t).emb (ix3 (0 : Fin 1) (⟨(z 1).val - 512 * (t.val % 8), by omega⟩ : Fin 512) (⟨(z 2).val, hz2⟩ : Fin 16)) := by
        funext a; apply Fin.ext
        match a with
        | ⟨0, _⟩ => show (z 0).val = k0_off3 (grid0.coords t) (0 : Fin 3) + 1 * 0; omega
        | ⟨1, _⟩ => show (z 1).val = k0_off3 (grid0.coords t) (1 : Fin 3) + 1 * ((z 1).val - 512 * (t.val % 8)); omega
        | ⟨2, _⟩ => show (z 2).val = k0_off3 (grid0.coords t) (2 : Fin 3) + 1 * (z 2).val; omega
      rw [congrArg d' hzz, hin, pay1_apply, hnew]
      refine congrArg (KL m c (t.val / 8 + 1)) ?_
      funext a; apply Fin.ext
      match a with
      | ⟨0, _⟩ => show 512 * (t.val % 8) + ((z 1).val - 512 * (t.val % 8)) = (z 1).val; omega
      | ⟨1, _⟩ => rfl

/-- The rectangle of the output window the last layer stores into. -/
abbrev R4 (t : Fin cfg0.N) (h : condEmit (grid0.coords t)) : Rect S4096x16 :=
  Rect.unit (s := S4096x16) (k0_off4 (grid0.coords t)) S512x16.size (k0_off4_inb (grid0.coords t) h)

theorem mem_R4 (t : Fin cfg0.N) (h : condEmit (grid0.coords t)) (j : S4096x16.Idx) :
    j ∈ (R4 t h).set ↔ 512 * (t.val % 8) ≤ (j 0).val ∧ (j 0).val < 512 * (t.val % 8) + 512 := by
  obtain ⟨-, -, -, -, -, -, -, -, o0, o1⟩ := off_facts t
  rw [Rect.mem_set_unit]
  constructor
  · intro h
    have a0 : k0_off4 (grid0.coords t) (0 : Fin 2) ≤ (j 0).val ∧ (j 0).val < k0_off4 (grid0.coords t) (0 : Fin 2) + 512 := h 0
    omega
  · rintro ⟨h0, h1⟩ a
    match a with
    | ⟨0, _⟩ => show k0_off4 (grid0.coords t) (0 : Fin 2) ≤ (j 0).val ∧ (j 0).val < k0_off4 (grid0.coords t) (0 : Fin 2) + 512; omega
    | ⟨1, _⟩ => show k0_off4 (grid0.coords t) (1 : Fin 2) ≤ (j 1).val ∧ (j 1).val < k0_off4 (grid0.coords t) (1 : Fin 2) + 16; have hj1 : (j 1).val < 16 := (j 1).isLt; omega

/-- How a point changes the output window: during the last layer (points 152 … 159) its rows
    `512 · (t % 8) …` become those of the final state; otherwise nothing changes. -/
def OutRel (c : Dev nD) (t : Fin cfg0.N) (Y X : Vec F S4096x16 .f32) : Prop :=
  ∀ j : S4096x16.Idx, X j = if 152 ≤ t.val ∧ 512 * (t.val % 8) ≤ (j 0).val ∧ (j 0).val < 512 * (t.val % 8) + 512 then KL m c 20 j else Y j

theorem outRel_refl (c : Dev nD) (t : Fin cfg0.N) (h : ¬152 ≤ t.val) (Y : Vec F S4096x16 .f32) : OutRel m c t Y Y := fun j => by
  rw [if_neg (fun h' => h h'.1)]

/-- The last layer's store into the output window. -/
theorem outRel_of_store (c : Dev nD) (t : Fin cfg0.N) (h : condEmit (grid0.coords t)) (Y X : Vec F S4096x16 .f32) (new : FVec F S512x16 .f32)
    (hnew : ∀ (p : Fin 512) (q : Fin 16), new (ix2 p q)
      = KL m c (t.val / 8 + 1) (ix2 (⟨512 * (t.val % 8) + p.val, LP.blk_row_lt (mod8_lt _) p.isLt⟩ : Fin 4096) q))
    (hin : ∀ x : S512x16.Idx, X ((R4 t h).emb x) = new x)
    (hout : ∀ j : S4096x16.Idx, j ∉ (R4 t h).set → X j = Y j) : OutRel m c t Y X := fun j => by
  obtain ⟨-, -, -, -, -, -, -, -, o0, o1⟩ := off_facts t
  have ht : 152 ≤ t.val := (hcondEmit t).mp h
  have hN : t.val < 160 := lt_of_lt_of_eq t.isLt (show cfg0.N = 160 from N_0)
  have hl : t.val / 8 + 1 = 20 := by omega
  by_cases hj : 512 * (t.val % 8) ≤ (j 0).val ∧ (j 0).val < 512 * (t.val % 8) + 512
  · rw [if_pos ⟨ht, hj⟩]
    have hj1 : (j 1).val < 16 := (j 1).isLt
    have hjj : j = (R4 t h).emb (ix2 (⟨(j 0).val - 512 * (t.val % 8), by omega⟩ : Fin 512) (⟨(j 1).val, hj1⟩ : Fin 16)) := by
      funext a; apply Fin.ext
      match a with
      | ⟨0, _⟩ => show (j 0).val = k0_off4 (grid0.coords t) (0 : Fin 2) + 1 * ((j 0).val - 512 * (t.val % 8)); omega
      | ⟨1, _⟩ => show (j 1).val = k0_off4 (grid0.coords t) (1 : Fin 2) + 1 * (j 1).val; omega
    rw [congrArg X hjj, hin, hnew, hl]
    refine congrArg (KL m c 20) ?_
    funext a; apply Fin.ext
    match a with
    | ⟨0, _⟩ => show 512 * (t.val % 8) + ((j 0).val - 512 * (t.val % 8)) = (j 0).val; omega
    | ⟨1, _⟩ => rfl
  · rw [if_neg (fun h' => hj h'.2)]
    exact hout j (by rw [mem_R4]; exact hj)

end Cert.Kernel.Gen

end
-- ==== Proof.K.Pieces.lean ====
import proofs.«174310_g75393855914571_cont_9to1_m_809_4_alg».proof.Proof.K.Runs
import proofs.«174310_g75393855914571_cont_9to1_m_809_4_alg».proof.Proof.K.Store
import proofs.«174310_g75393855914571_cont_9to1_m_809_4_alg».proof.Proof.Gen.Kernel.Frame
import proofs.«174310_g75393855914571_cont_9to1_m_809_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The stores each case of the body makes, and what they leave in the scratch and the output window -/

/-- The 512 new rows a point computes from what its three loads read. -/
def newOf (t : Fin cfg0.N) (x0 : Vec F S4096x16 .f32) (x1 : Vec F S512x4096 .f32) (xs : Vec F S2x4096x16 .f32) : FVec F S512x16 .f32 :=
  k0_pay3 (View.ld xs (Rect.unit (s := S2x4096x16) (k0_off1 (grid0.coords t)) S1x4096x16.size (k0_off1_inb (grid0.coords t))))
    (View.ld x1 (Rect.unit (s := S512x4096) ![0, 0] S512x4096.size inb_S512x4096_S512x4096_0_0))
    (View.ld x0 (Rect.unit (s := S4096x16) (k0_off2 (grid0.coords t)) S512x16.size (k0_off2_inb (grid0.coords t))))

theorem newOf_eq (c : Dev nD) (t : Fin cfg0.N) (xs : Vec F S2x4096x16 .f32)
    (h : ∀ z : S2x4096x16.Idx, (z 0).val = (t.val / 8) % 2 → xs z = KL m c (t.val / 8) (ix2 (z 1) (z 2))) (p : Fin 512) (q : Fin 16) :
    newOf t (iblk m c 0 t) (iblk m c 1 t) xs (ix2 p q)
      = KL m c (t.val / 8 + 1) (ix2 (⟨512 * (t.val % 8) + p.val, LP.blk_row_lt (mod8_lt _) p.isLt⟩ : Fin 4096) q) :=
  new_eq m c t xs h p q

/-- The copy of `y` into slot 0 at the first point. -/
abbrev initPiece (x0 : Vec F S4096x16 .f32) : View.Piece (Elt F) S2x4096x16 .f32 :=
  ⟨Rect.unit (s := S2x4096x16) ![0, 0, 0] S1x4096x16.size inb_S2x4096x16_S1x4096x16_0_0_0,
    k0_pay2 (View.ld x0 (Rect.unit (s := S4096x16) ![0, 0] S4096x16.size inb_S4096x16_S4096x16_0_0))⟩

theorem runB_pieces (c : Dev nD) (t : Fin cfg0.N) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : ¬condInit (grid0.coords t)) (hc1 : ¬condEmit (grid0.coords t))
    (x0 : Vec F S4096x16 .f32) (x1 : Vec F S512x4096 .f32) (xs : Vec F S2x4096x16 .f32) :
    (kernelRun_B c (grid0.coords t) arg2 harg2 arg3 harg3 arg4 harg4 arg5 harg5 hc0 hc1 x0 x1 xs).1 = [⟨R3 t, k0_pay1 (newOf t x0 x1 xs)⟩] := by
  unfold kernelRun_B newOf
  dsimp only
  sl_unfold_run_names
  simp only [View.readAt_eq_ld, Memref.IsWhole.read_unread]

theorem runC_pieces (c : Dev nD) (t : Fin cfg0.N) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : ¬condInit (grid0.coords t)) (hc1 : condEmit (grid0.coords t))
    (x0 : Vec F S4096x16 .f32) (x1 : Vec F S512x4096 .f32) (xi2 : Vec F S4096x16 .f32) (xs : Vec F S2x4096x16 .f32) :
    (kernelRun_C c (grid0.coords t) arg2 harg2 arg3 harg3 arg4 harg4 arg5 harg5 hc0 hc1 x0 x1 xi2 xs).1 = [⟨R4 t hc1, newOf t x0 x1 xs⟩]
    ∧ (kernelRun_C c (grid0.coords t) arg2 harg2 arg3 harg3 arg4 harg4 arg5 harg5 hc0 hc1 x0 x1 xi2 xs).2.1 = [⟨R3 t, k0_pay1 (newOf t x0 x1 xs)⟩] := by
  unfold kernelRun_C newOf
  dsimp only
  sl_unfold_run_names
  simp only [View.readAt_eq_ld, Memref.IsWhole.read_unread, and_self]

theorem runA_pieces (c : Dev nD) (t : Fin cfg0.N) (ht : t.val = 0) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : condInit (grid0.coords t)) (hc1 : ¬condEmit (grid0.coords t))
    (x0 : Vec F S4096x16 .f32) (x1 : Vec F S512x4096 .f32) (xs : Vec F S2x4096x16 .f32) :
    (kernelRun_A c t ht arg2 harg2 arg3 harg3 arg4 harg4 arg5 harg5 hc0 hc1 x0 x1 xs).1
      = [⟨R3 t, k0_pay1 (newOf t x0 x1 (arg5.view.read (Elt F) (arg5.view.writes (Elt F) (harg5.unread xs) [initPiece x0])))⟩, initPiece x0] := by
  unfold kernelRun_A newOf
  dsimp only
  sl_unfold_run_names
  simp only [View.readAt_eq_ld, Memref.IsWhole.read_unread]

/-- Reading through one more store: under it, its value; off it, what was there. -/
theorem read_store_in {s : Shape} (v : Memref sig .tc .vmem s .f32) (f : v.view.ty.Contents (Elt F)) (r : Rect s) (w : r.shape.Idx → Elt F .f32)
    (L : List (View.Piece (Elt F) s .f32)) (x : r.shape.Idx) :
    v.view.read (Elt F) (v.view.writes (Elt F) f (⟨r, w⟩ :: L)) (r.emb x) = w x :=
  View.read_writes_cons_emb v.view f r w L x

theorem read_store_out {s : Shape} (v : Memref sig .tc .vmem s .f32) (f : v.view.ty.Contents (Elt F)) (r : Rect s) (w : r.shape.Idx → Elt F .f32)
    (L : List (View.Piece (Elt F) s .f32)) (z : s.Idx) (hz : z ∉ r.set) :
    v.view.read (Elt F) (v.view.writes (Elt F) f (⟨r, w⟩ :: L)) z = v.view.read (Elt F) (v.view.writes (Elt F) f L) z := by
  rw [View.writes_cons, View.read_slice_write_of_not_mem r _ _ _ (by rw [Rect.map_emb_univ]; exact hz)]

/-- After a point that is not the first. -/
theorem scratch_after (c : Dev nD) (t : Fin cfg0.N) (arg5 : Memref sig .tc .vmem S2x4096x16 .f32) (harg5 : arg5.IsWhole)
    (d : Vec F S2x4096x16 .f32) (hB : SBefore m c t.val d) :
    SAfter m c t.val (arg5.view.read (Elt F) (arg5.view.writes (Elt F) (harg5.unread d)
      [⟨R3 t, k0_pay1 (newOf t (iblk m c 0 t) (iblk m c 1 t) d)⟩])) :=
  safter_of_store m c t d _ (newOf t (iblk m c 0 t) (iblk m c 1 t) d) hB (newOf_eq m c t d hB.1)
    (fun x => read_store_in arg5 _ (R3 t) _ [] x)
    (fun z hz => (read_store_out arg5 _ (R3 t) _ [] z hz).trans (congrFun (harg5.read_unread d) z))

theorem pay2_apply (v : Vec F S4096x16 .f32) (u : Fin 1) (p : Fin 4096) (q : Fin 16) : k0_pay2 v (ix3 u p q) = v (ix2 p q) := by
  unfold k0_pay2
  exact shapeCast_ab_1ab_apply v _ u p q

theorem hz3 : (![0, 0, 0] : Fin 3 → Nat) = fun _ => 0 := funext fun a => by fin_cases a <;> rfl

/-- After the copy-in at the first point, slot 0 holds `y`, the state after no layer. -/
theorem sbefore_init (c : Dev nD) (t : Fin cfg0.N) (ht : t.val = 0) (arg5 : Memref sig .tc .vmem S2x4096x16 .f32) (harg5 : arg5.IsWhole)
    (d : Vec F S2x4096x16 .f32) :
    SBefore m c t.val (arg5.view.read (Elt F) (arg5.view.writes (Elt F) (harg5.unread d) [initPiece (iblk m c 0 t)])) := by
  refine ⟨fun z hz => ?_, fun z hz hlt => by rw [ht] at hlt; omega⟩
  rw [ht] at hz ⊢
  have hz0 : (z 0).val = 0 := by omega
  have hzc1 : (z 1).val < 4096 := (z 1).isLt
  have hzc2 : (z 2).val < 16 := (z 2).isLt
  have hzz : z = (Rect.unit (s := S2x4096x16) ![0, 0, 0] S1x4096x16.size inb_S2x4096x16_S1x4096x16_0_0_0).emb
      (ix3 (0 : Fin 1) (⟨(z 1).val, hzc1⟩ : Fin 4096) (⟨(z 2).val, hzc2⟩ : Fin 16)) := by
    funext a; apply Fin.ext
    match a with
    | ⟨0, _⟩ => show (z 0).val = 0 + 1 * 0; omega
    | ⟨1, _⟩ => show (z 1).val = 0 + 1 * (z 1).val; omega
    | ⟨2, _⟩ => show (z 2).val = 0 + 1 * (z 2).val; omega
  rw [congrArg (arg5.view.read (Elt F) (arg5.view.writes (Elt F) (harg5.unread d) [initPiece (iblk m c 0 t)])) hzz]
  rw [read_store_in arg5 _ _ _ [] _, pay2_apply, View.ld_unit_zero (S := S4096x16) hz2, iblk0_eq]
  rfl

/-- After the first point. -/
theorem scratch_after_first (c : Dev nD) (t : Fin cfg0.N) (ht : t.val = 0) (arg5 : Memref sig .tc .vmem S2x4096x16 .f32) (harg5 : arg5.IsWhole)
    (d : Vec F S2x4096x16 .f32) :
    SAfter m c t.val (arg5.view.read (Elt F) (arg5.view.writes (Elt F) (harg5.unread d)
      [⟨R3 t, k0_pay1 (newOf t (iblk m c 0 t) (iblk m c 1 t)
          (arg5.view.read (Elt F) (arg5.view.writes (Elt F) (harg5.unread d) [initPiece (iblk m c 0 t)])))⟩, initPiece (iblk m c 0 t)])) :=
  safter_of_store m c t _ _ _ (sbefore_init m c t ht arg5 harg5 d) (newOf_eq m c t _ (sbefore_init m c t ht arg5 harg5 d).1)
    (fun x => read_store_in arg5 _ (R3 t) _ _ x)
    (fun z hz => read_store_out arg5 _ (R3 t) _ _ z hz)

/-- The output window after a point of the last layer. -/
theorem out_after (c : Dev nD) (t : Fin cfg0.N) (hc1 : condEmit (grid0.coords t)) (arg4 : Memref sig .tc .vmem S4096x16 .f32) (harg4 : arg4.IsWhole)
    (Y : Vec F S4096x16 .f32) (d : Vec F S2x4096x16 .f32) (hB : SBefore m c t.val d) :
    OutRel m c t Y (arg4.view.read (Elt F) (arg4.view.writes (Elt F) (harg4.unread Y)
      [⟨R4 t hc1, newOf t (iblk m c 0 t) (iblk m c 1 t) d⟩])) :=
  outRel_of_store m c t hc1 Y _ (newOf t (iblk m c 0 t) (iblk m c 1 t) d) (newOf_eq m c t d hB.1)
    (fun x => read_store_in arg4 _ (R4 t hc1) _ [] x)
    (fun z hz => (read_store_out arg4 _ (R4 t hc1) _ [] z hz).trans (congrFun (harg4.read_unread Y) z))

end Cert.Kernel.Gen

end
-- ==== Proof.K.Data.lean ====
import proofs.«174310_g75393855914571_cont_9to1_m_809_4_alg».proof.Proof.K.Pieces
import proofs.«174310_g75393855914571_cont_9to1_m_809_4_alg».proof.Proof.Gen.Kernel.Frame
import proofs.«174310_g75393855914571_cont_9to1_m_809_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

/-! ## The proof data of the one pipeline

The two input windows are left as found; the output window changes by `OutRel`; between points the region keeps
the scratch, at contents satisfying `SAfter` of the point just run (before the first point: at anything). -/

/-- Each window's current staging memref at point `t`, as the pipeline passes it to the body, and the scratch. -/
abbrev ms0 (t : Fin cfg0.N) : Memref sig .tc .vmem S4096x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x16 .f32 := win0_2.stage (cfg0.slots t 2)
abbrev hs2 (t : Fin cfg0.N) : (ms2 t).IsWhole := hstage0_2 ((cfg0.slots t 2).cast nbuf0_2)
abbrev scM : Memref sig .tc .vmem S2x4096x16 .f32 := Memref.whole cc0_scratch0

/-- What the region holds besides the windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region's invariant before position `n`. -/
def PhiS (c : Dev nD) : (n : ℕ) → sProp 𝕄
  | 0 => Pipeline.ΦA spec0 c
  | n + 1 => iprop(iprop(∃ d, ⌜SAfter m c n d⌝ ∗ owns (c : Thread nD τ) scM fullShare d) ∗ (∃ r, prngReg c r))

theorem PhiS_zero (c : Dev nD) (n : ℕ) (hz : n = 0) : PhiS m c n = Pipeline.ΦA spec0 c := by subst hz; rfl
theorem PhiS_succ (c : Dev nD) (n : ℕ) :
    PhiS m c (n + 1) = iprop(iprop(∃ d, ⌜SAfter m c n d⌝ ∗ owns (c : Thread nD τ) scM fullShare d) ∗ (∃ r, prngReg c r)) := rfl
theorem PhiS_pos (c : Dev nD) (n : ℕ) (hz : n ≠ 0) :
    PhiS m c n = iprop(iprop(∃ d, ⌜SAfter m c (n - 1) d⌝ ∗ owns (c : Thread nD τ) scM fullShare d) ∗ (∃ r, prngReg c r)) := by
  cases n with
  | zero => exact absurd rfl hz
  | succ n => rfl

/-- The relational proof data on core `c`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => OutRel m c t Y X
  Φ t := PhiS m c t.val
  q _ := fullShare
  owed _ := 0

theorem rdat_A (c : Dev nD) (w : Fin cfg0.W) : (rdat m c).A w = V m c (Pipeline.arrRef spec0 w) := by dsimp only [rdat]
theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = OutRel m c t Y X := by dsimp only [rdat]

/-- Whatever the body finds in the window of `y` is the array `y`: fetched at the first point, left in place since. -/
theorem finds0 (c : Dev nD) (t : Fin cfg0.N) (Y) (h : (rdat m c).Finds 0 t Y) : Y = iblk m c 0 t := by
  obtain ⟨d, hd⟩ := Pipeline.RDat.finds_in_eq_fetched (rdat m c) 0 rfl (fun _ _ _ => rfl)
    (fun t Y X hR => by rw [after_0] at hR; exact hR) t Y h
  rw [hd]; unfold RDat.fetched RDat.blockOf iblk; rw [rdat_A]; try rfl

/-- Whatever it finds in the adjacency window is this point's rows: the window is fetched at every point. -/
theorem finds1 (c : Dev nD) (t : Fin cfg0.N) (Y) (h : (rdat m c).Finds 1 t Y) : Y = iblk m c 1 t := by
  obtain ⟨d, hd⟩ := Pipeline.RDat.finds_in_eq_fetched (rdat m c) 1 rfl (fun _ _ _ => rfl)
    (fun t Y X hR => by rw [after_1] at hR; exact hR) t Y h
  rw [hd]; unfold RDat.fetched RDat.blockOf iblk; rw [rdat_A]; try rfl

end Cert.Kernel.Gen

end
-- ==== Proof.K.BodyDefs.lean ====
import proofs.«174310_g75393855914571_cont_9to1_m_809_4_alg».proof.Proof.K.Data
import proofs.«174310_g75393855914571_cont_9to1_m_809_4_alg».proof.Proof.Gen.Kernel.Frame
import proofs.«174310_g75393855914571_cont_9to1_m_809_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

/-! ## The body obligation's two sides at a point -/

/-- What the body is called with at point `t`, -/
def bodyPre (c : Dev nD) (t : Fin cfg0.N) (Y2 : Vec F S4096x16 .f32) : sProp 𝕄 :=
  iprop(PhiS m c t.val ∗ (rdat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare Y2)

/-- and what it returns. -/
def bodyPost (c : Dev nD) (t : Fin cfg0.N) (Y2 : Vec F S4096x16 .f32) : sProp 𝕄 :=
  iprop(PhiS m c (t.val + 1) ∗ (rdat m c).owesAt () t.castSucc
    ∗ (∃ X, ⌜X = iblk m c 0 t⌝ ∗ owns (c : Thread nD τ) (ms0 t) fullShare X)
    ∗ (∃ X, ⌜X = iblk m c 1 t⌝ ∗ owns (c : Thread nD τ) (ms1 t) fullShare X)
    ∗ (∃ X, ⌜OutRel m c t Y2 X⌝ ∗ owns (c : Thread nD τ) (ms2 t) fullShare X))

/-- The scratch before a point that is not the first, from what the point before left. -/
theorem sbefore_of_pos (c : Dev nD) (t : Fin cfg0.N) (hz : t.val ≠ 0) (d : Vec F S2x4096x16 .f32) (hd : SAfter m c (t.val - 1) d) :
    SBefore m c t.val d := by
  have := sbefore_succ m c (t.val - 1) d hd
  rwa [Nat.sub_add_cancel (Nat.one_le_iff_ne_zero.mpr hz)] at this

end Cert.Kernel.Gen

end
-- ==== Proof.K.BodyA.lean ====
import proofs.«174310_g75393855914571_cont_9to1_m_809_4_alg».proof.Proof.K.BodyDefs
import proofs.«174310_g75393855914571_cont_9to1_m_809_4_alg».proof.Proof.Gen.Kernel.Frame
import proofs.«174310_g75393855914571_cont_9to1_m_809_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

set_option maxHeartbeats 2000000 in
/-- The body at the first point: the scratch comes in at anything. -/
theorem sound_body_A (c : Dev nD) (t : Fin cfg0.N) (Y2 : Vec F S4096x16 .f32) (hz : t.val = 0) :
    bodyPre m c t Y2 ⊢ wp frame (wpE (defs₀ (F := F)) Variants.none c none) Set.univ (bodyAt0 t) (fun _ => bodyPost m c t Y2) := by
  unfold bodyPre bodyPost bodyAt0
  rw [PhiS_succ]
  have hc0 : condInit (grid0.coords t) := (hcondInit t).mpr hz
  have hc1 : ¬condEmit (grid0.coords t) := fun h => by have := (hcondEmit t).mp h; omega
  rw [PhiS_zero m c _ hz, PhiA_eq]
  iintro ⟨⟨⟨%d, HS⟩, Hg⟩, Ho, H0, H1, H2⟩
  iapply ((kernelRun_A c t hz _ _ _ _ _ _ scM (Memref.isWhole_whole _) hc0 hc1 (iblk m c 0 t) (iblk m c 1 t) d).2 Y2 Set.univ _)
  isplitl [H0]; · iexact H0
  isplitl [H1]; · iexact H1
  isplitl [H2]; · iexact H2
  isplitl [HS]; · iexact HS
  iintro ⟨H0, H1, H2, HS⟩
  isplitl [HS Hg]
  · isplitl [HS]
    · iexists _; isplitr
      swap
      · iapply (owns_intro (c : Thread nD τ) scM fullShare _); iexact HS
      ipureintro
      rw [runA_pieces]
      exact scratch_after_first m c t hz scM (Memref.isWhole_whole _) d
    · iexact Hg
  isplitl [Ho]; · iexact Ho
  isplitl [H0]; · iexists _; isplitr; · ipureintro; rfl
                  iexact H0
  isplitl [H1]; · iexists _; isplitr; · ipureintro; rfl
                  iexact H1
  iexists _; isplitr; · ipureintro; exact outRel_refl m c t (by omega) Y2
  iexact H2

end Cert.Kernel.Gen

end
-- ==== Proof.K.BodyB.lean ====
import proofs.«174310_g75393855914571_cont_9to1_m_809_4_alg».proof.Proof.K.BodyDefs
import proofs.«174310_g75393855914571_cont_9to1_m_809_4_alg».proof.Proof.Gen.Kernel.Frame
import proofs.«174310_g75393855914571_cont_9to1_m_809_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

set_option maxHeartbeats 2000000 in
/-- The body at a later point of layers 0 … 18: the scratch comes in as the point before left it. -/
theorem sound_body_B (c : Dev nD) (t : Fin cfg0.N) (Y2 : Vec F S4096x16 .f32) (hz : t.val ≠ 0) (he : ¬152 ≤ t.val) :
    bodyPre m c t Y2 ⊢ wp frame (wpE (defs₀ (F := F)) Variants.none c none) Set.univ (bodyAt0 t) (fun _ => bodyPost m c t Y2) := by
  unfold bodyPre bodyPost bodyAt0
  rw [PhiS_succ]
  have hc0 : ¬condInit (grid0.coords t) := fun h => hz ((hcondInit t).mp h)
  have hc1 : ¬condEmit (grid0.coords t) := fun h => he ((hcondEmit t).mp h)
  rw [PhiS_pos m c _ hz]
  iintro ⟨⟨⟨%d, %hd, HS⟩, Hg⟩, Ho, H0, H1, H2⟩
  have hB : SBefore m c t.val d := sbefore_of_pos m c t hz d hd
  iapply ((kernelRun_B c (grid0.coords t) _ _ _ _ _ _ scM (Memref.isWhole_whole _) hc0 hc1 (iblk m c 0 t) (iblk m c 1 t) d).2 Y2 Set.univ _)
  isplitl [H0]; · iexact H0
  isplitl [H1]; · iexact H1
  isplitl [H2]; · iexact H2
  isplitl [HS]; · iexact HS
  iintro ⟨H0, H1, H2, HS⟩
  isplitl [HS Hg]
  · isplitl [HS]
    · iexists _; isplitr
      swap
      · iapply (owns_intro (c : Thread nD τ) scM fullShare _); iexact HS
      ipureintro
      rw [runB_pieces]
      exact scratch_after m c t scM (Memref.isWhole_whole _) d hB
    · iexact Hg
  isplitl [Ho]; · iexact Ho
  isplitl [H0]; · iexists _; isplitr; · ipureintro; rfl
                  iexact H0
  isplitl [H1]; · iexists _; isplitr; · ipureintro; rfl
                  iexact H1
  iexists _; isplitr; · ipureintro; exact outRel_refl m c t he Y2
  iexact H2

end Cert.Kernel.Gen

end
-- ==== Proof.K.BodyC.lean ====
import proofs.«174310_g75393855914571_cont_9to1_m_809_4_alg».proof.Proof.K.BodyDefs
import proofs.«174310_g75393855914571_cont_9to1_m_809_4_alg».proof.Proof.Gen.Kernel.Frame
import proofs.«174310_g75393855914571_cont_9to1_m_809_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

set_option maxHeartbeats 2000000 in
/-- The body at a point of the last layer: the new rows also go to the output window. -/
theorem sound_body_C (c : Dev nD) (t : Fin cfg0.N) (Y2 : Vec F S4096x16 .f32) (hz : t.val ≠ 0) (he : 152 ≤ t.val) :
    bodyPre m c t Y2 ⊢ wp frame (wpE (defs₀ (F := F)) Variants.none c none) Set.univ (bodyAt0 t) (fun _ => bodyPost m c t Y2) := by
  unfold bodyPre bodyPost bodyAt0
  rw [PhiS_succ]
  have hc0 : ¬condInit (grid0.coords t) := fun h => hz ((hcondInit t).mp h)
  have hc1 : condEmit (grid0.coords t) := (hcondEmit t).mpr he
  rw [PhiS_pos m c _ hz]
  iintro ⟨⟨⟨%d, %hd, HS⟩, Hg⟩, Ho, H0, H1, H2⟩
  have hB : SBefore m c t.val d := sbefore_of_pos m c t hz d hd
  iapply ((kernelRun_C c (grid0.coords t) _ _ _ _ _ _ scM (Memref.isWhole_whole _) hc0 hc1 (iblk m c 0 t) (iblk m c 1 t) Y2 d).2.2 Set.univ _)
  isplitl [H0]; · iexact H0
  isplitl [H1]; · iexact H1
  isplitl [H2]; · iexact H2
  isplitl [HS]; · iexact HS
  iintro ⟨H0, H1, H2, HS⟩
  isplitl [HS Hg]
  · isplitl [HS]
    · iexists _; isplitr
      swap
      · iapply (owns_intro (c : Thread nD τ) scM fullShare _); iexact HS
      ipureintro
      rw [(runC_pieces c t _ _ _ _ _ _ scM (Memref.isWhole_whole _) hc0 hc1 (iblk m c 0 t) (iblk m c 1 t) Y2 d).2]
      exact scratch_after m c t scM (Memref.isWhole_whole _) d hB
    · iexact Hg
  isplitl [Ho]; · iexact Ho
  isplitl [H0]; · iexists _; isplitr; · ipureintro; rfl
                  iexact H0
  isplitl [H1]; · iexists _; isplitr; · ipureintro; rfl
                  iexact H1
  iexists _; isplitr
  swap
  · iapply (owns_intro (c : Thread nD τ) (ms2 t) fullShare _); iexact H2
  ipureintro
  rw [(runC_pieces c t _ _ _ _ _ _ scM (Memref.isWhole_whole _) hc0 hc1 (iblk m c 0 t) (iblk m c 1 t) Y2 d).1]
  exact out_after m c t hc1 (ms2 t) (hs2 t) Y2 d hB

end Cert.Kernel.Gen

end
-- ==== Proof.K.Body.lean ====
import proofs.«174310_g75393855914571_cont_9to1_m_809_4_alg».proof.Proof.K.BodyA
import proofs.«174310_g75393855914571_cont_9to1_m_809_4_alg».proof.Proof.K.BodyB
import proofs.«174310_g75393855914571_cont_9to1_m_809_4_alg».proof.Proof.K.BodyC
import proofs.«174310_g75393855914571_cont_9to1_m_809_4_alg».proof.Proof.Gen.Kernel.Frame
import proofs.«174310_g75393855914571_cont_9to1_m_809_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)
/-- The library's body obligation over the relational data, at every point. -/
theorem body_obligation (c : Dev nD) : (rdat (F := F) m c).BodyObligation (defs₀ (F := F)) Variants.none () Set.univ := fun t Y hY => by
  rw [bigSep_W0, bigSep_W0]
  have h0 := finds0 m c t (Y 0) (hY 0)
  have h1 := finds1 m c t (Y 1) (hY 1)
  have key : bodyPre m c t (Y 2) ⊢ wp frame (wpE (defs₀ (F := F)) Variants.none c none) Set.univ (bodyAt0 t) (fun _ => bodyPost m c t (Y 2)) := by
    by_cases hz : t.val = 0
    · exact sound_body_A m c t (Y 2) hz
    · by_cases he : 152 ≤ t.val
      · exact sound_body_C m c t (Y 2) hz he
      · exact sound_body_B m c t (Y 2) hz he
  unfold bodyPre bodyPost at key
  rw [← h0, ← h1] at key
  exact key

/-- What the launch hands the region is the invariant before the first point. -/
theorem hin (c : Dev nD) : Pipeline.ΦA spec0 c ⊢ (rdat m c).Φ 0 := by
  rw [show (rdat m c).Φ 0 = PhiS m c 0 from rfl, PhiS_zero m c 0 rfl]
  try exact Idealize.SL.BI.Entails.refl _

/-- After the last point the invariant gives the scratch back at some contents. -/
theorem hout (c : Dev nD) : (rdat m c).Φ (Fin.last cfg0.N) ⊢ Pipeline.ΦA spec0 c := by
  rw [show (rdat m c).Φ (Fin.last cfg0.N) = PhiS m c (Fin.last cfg0.N).val from rfl,
    PhiS_pos m c _ (by rw [Fin.val_last]; have : cfg0.N = 160 := N_0; omega), PhiA_eq]
  iintro ⟨⟨%d, -, HS⟩, Hg⟩
  isplitl [HS]
  · iexists _; iexact HS
  iexact Hg

set_option backward.isDefEq.respectTransparency.types false in
/-- Every weakly fair execution of @main terminates without a fault; every array of the pipeline ends at contents the
    relational data allow after every write-back, and every other unscoped buffer as the region found it. -/
theorem run_main : θ_run defs (onTc (τ := τ) (main (F := F))) (s₀ m ρ) (Pipeline.RDat.FramePost cfg0 (rdat m) (V m)) :=
  Pipeline.RDat.θ_run_frame_track cfgs (0 : Fin 1) launch0 defs₀ Variants.none (rdat m) m ρ main
    (hbody := body_obligation m) (hshare := fun c w => by unfold RDat.share; dsimp only [rdat]; split <;> rfl)
    (howed := fun _ _ => rfl) (V := V m) (hmain := hmain m Variants.none) (hA := rdat_A m) (hin := hin m) (hout := hout m)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h0 := (h c).1 0
    have h1 := (h c).1 1
    rw [(rdat m c).ArrAt_in 0 rfl] at h0
    rw [(rdat m c).ArrAt_in 1 rfl] at h1
    exact ⟨h0.trans ((rdat_A m c 0).trans (V_main_arg0 m c)), h1.trans ((rdat_A m c 1).trans (V_main_arg1 m c))⟩) (run_main m ρ)

end Cert.Kernel.Gen

end
-- ==== Proof.KI.Sched.lean ====
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule in closed form

A grid point `t` of the 20 × 8 grid is layer `t / 8`, row block `t % 8`. The label state is copied into the
first half of the scratch at the very first point only; the result is emitted during the last layer only; layer
`l` reads half `l % 2` of the scratch and writes rows `512·(t % 8) …` of half `(l + 1) % 2`. -/

/-- The condition of the copy-in branch: layer 0 and row block 0. -/
abbrev condInit (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the emitting branch: the last layer. -/
abbrev condEmit (i : grid0.Coords) : Prop := k0_cond2 i = 1#1

theorem hcondInit : ∀ t : Fin cfg0.N, condInit (grid0.coords t) ↔ t.val = 0 :=
  (by decide +kernel : ∀ t : Fin grid0.N, condInit (grid0.coords t) ↔ t.val = 0)
theorem hcondEmit : ∀ t : Fin cfg0.N, condEmit (grid0.coords t) ↔ 152 ≤ t.val :=
  (by decide +kernel : ∀ t : Fin grid0.N, condEmit (grid0.coords t) ↔ 152 ≤ t.val)

theorem off1_eq : ∀ t : Fin cfg0.N, k0_off1 (grid0.coords t) = ![(t.val / 8) % 2, 0, 0] :=
  (by decide +kernel : ∀ t : Fin grid0.N, k0_off1 (grid0.coords t) = ![(t.val / 8) % 2, 0, 0])
theorem off2_eq : ∀ t : Fin cfg0.N, k0_off2 (grid0.coords t) = ![512 * (t.val % 8), 0] :=
  (by decide +kernel : ∀ t : Fin grid0.N, k0_off2 (grid0.coords t) = ![512 * (t.val % 8), 0])
theorem off3_eq : ∀ t : Fin cfg0.N, k0_off3 (grid0.coords t) = ![(t.val / 8 + 1) % 2, 512 * (t.val % 8), 0] :=
  (by decide +kernel : ∀ t : Fin grid0.N, k0_off3 (grid0.coords t) = ![(t.val / 8 + 1) % 2, 512 * (t.val % 8), 0])
theorem off4_eq : ∀ t : Fin cfg0.N, k0_off4 (grid0.coords t) = ![512 * (t.val % 8), 0] :=
  (by decide +kernel : ∀ t : Fin grid0.N, k0_off4 (grid0.coords t) = ![512 * (t.val % 8), 0])

/-- The same offsets as instances, for reading a rectangle's place against another's. -/
instance closedOff1 (t : Fin cfg0.N) : ClosedOff (k0_off1 (grid0.coords t)) := ⟨![(t.val / 8) % 2, 0, 0], off1_eq t⟩
instance closedOff3 (t : Fin cfg0.N) : ClosedOff (k0_off3 (grid0.coords t)) := ⟨![(t.val / 8 + 1) % 2, 512 * (t.val % 8), 0], off3_eq t⟩

/-- The offsets and the windows' block indices, coordinate by coordinate. -/
theorem off_facts : ∀ t : Fin cfg0.N,
    k0_off1 (grid0.coords t) (0 : Fin 3) = (t.val / 8) % 2 ∧ k0_off1 (grid0.coords t) (1 : Fin 3) = 0 ∧ k0_off1 (grid0.coords t) (2 : Fin 3) = 0
    ∧ k0_off2 (grid0.coords t) (0 : Fin 2) = 512 * (t.val % 8) ∧ k0_off2 (grid0.coords t) (1 : Fin 2) = 0
    ∧ k0_off3 (grid0.coords t) (0 : Fin 3) = (t.val / 8 + 1) % 2 ∧ k0_off3 (grid0.coords t) (1 : Fin 3) = 512 * (t.val % 8) ∧ k0_off3 (grid0.coords t) (2 : Fin 3) = 0
    ∧ k0_off4 (grid0.coords t) (0 : Fin 2) = 512 * (t.val % 8) ∧ k0_off4 (grid0.coords t) (1 : Fin 2) = 0 :=
  (by decide +kernel : ∀ t : Fin grid0.N, _)

theorem idx_facts : ∀ t : Fin cfg0.N,
    win0_0.index t (0 : Fin 2) = 0 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = 0 :=
  (by decide +kernel : ∀ t : Fin grid0.N, _)

theorem index0_eq : ∀ t : Fin cfg0.N, win0_0.index t = ![0, 0] :=
  (by decide +kernel : ∀ t : Fin grid0.N, win0_0.index t = ![0, 0])
theorem index1_eq : ∀ t : Fin cfg0.N, win0_1.index t = ![t.val % 8, 0] :=
  (by decide +kernel : ∀ t : Fin grid0.N, win0_1.index t = ![t.val % 8, 0])
theorem index2_eq : ∀ t : Fin cfg0.N, win0_2.index t = ![0, 0] :=
  (by decide +kernel : ∀ t : Fin grid0.N, win0_2.index t = ![0, 0])

end Cert.KernelIdeal.Gen

end
-- ==== Proof.KI.Runs.lean ====
import proofs.«174310_g75393855914571_cont_9to1_m_809_4_alg».proof.Proof.KI.Sched
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at one grid point, in its three control cases

The body is handed four whole memrefs: the label window `y` (never written), the window of 512 adjacency rows
(never written), the output window and the two-slot scratch. It runs without a fault whatever they hold. What it
leaves: the inputs as they were; in the scratch, one store of 512 rows into the slot the layer writes (after, at the
very first point only, a store of `y` into slot 0); in the output window nothing, except during the last layer,
where the same 512 rows are stored at their place. Each case records the stores as a list of pieces, last store
first, over the contents the memref held before. -/

set_option maxHeartbeats 1000000 in
/-- The first point (layer 0, row block 0): the copy-in branch is taken, the emitting branch is not. The layer reads
    slot 0, which the copy-in has just filled, and writes rows 0 … 511 of slot 1. -/
noncomputable def kernelRun_A (c : Dev nD) (t : Fin cfg0.N) (ht : t.val = 0) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : condInit (grid0.coords t)) (hc1 : ¬condEmit (grid0.coords t))
    (x0 : Vec F S4096x16 .f32) (x1 : Vec F S512x4096 .f32) (xs : Vec F S2x4096x16 .f32) :
    { LS : List (View.Piece (Elt F) S2x4096x16 .f32) //
      ∀ (xi2 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (arg5.view.loc (c : Thread nD τ) ↦[arg5.view.set]{fullShare} arg5.view.writes (Elt F) (harg5.unread xs) LS)) -∗ K ⟨⟩))
          ⊢ wp frame (wpE (defs₀ (F := F)) Variants.none c none) E (cc0__lp_body (grid0.coords t) arg2 harg2 arg3 harg3 arg4 harg4 arg5 harg5) K } := by
  refine ⟨?_, fun xi2 E K => ?run⟩
  case run =>
    simp only [cc0__lp_body_eq_skeleton]; unfold cc0__lp_body_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

set_option maxHeartbeats 1000000 in
/-- A point of layers 0 … 18 other than the first: neither branch is taken. -/
noncomputable def kernelRun_B (c : Dev nD) (i : grid0.Coords) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : ¬condInit i) (hc1 : ¬condEmit i)
    (x0 : Vec F S4096x16 .f32) (x1 : Vec F S512x4096 .f32) (xs : Vec F S2x4096x16 .f32) :
    { LS : List (View.Piece (Elt F) S2x4096x16 .f32) //
      ∀ (xi2 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (arg5.view.loc (c : Thread nD τ) ↦[arg5.view.set]{fullShare} arg5.view.writes (Elt F) (harg5.unread xs) LS)) -∗ K ⟨⟩))
          ⊢ wp frame (wpE (defs₀ (F := F)) Variants.none c none) E (cc0__lp_body i arg2 harg2 arg3 harg3 arg4 harg4 arg5 harg5) K } := by
  refine ⟨?_, fun xi2 E K => ?run⟩
  case run =>
    simp only [cc0__lp_body_eq_skeleton]; unfold cc0__lp_body_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

set_option maxHeartbeats 1000000 in
/-- A point of the last layer: the emitting branch is taken, and the output window receives a store as well. -/
noncomputable def kernelRun_C (c : Dev nD) (i : grid0.Coords) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : ¬condInit i) (hc1 : condEmit i)
    (x0 : Vec F S4096x16 .f32) (x1 : Vec F S512x4096 .f32) (xi2 : Vec F S4096x16 .f32) (xs : Vec F S2x4096x16 .f32) :
    Σ' (L2 : List (View.Piece (Elt F) S4096x16 .f32)), { LS : List (View.Piece (Elt F) S2x4096x16 .f32) //
      ∀ (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xi2) L2) ∗ (arg5.view.loc (c : Thread nD τ) ↦[arg5.view.set]{fullShare} arg5.view.writes (Elt F) (harg5.unread xs) LS)) -∗ K ⟨⟩))
          ⊢ wp frame (wpE (defs₀ (F := F)) Variants.none c none) E (cc0__lp_body i arg2 harg2 arg3 harg3 arg4 harg4 arg5 harg5) K } := by
  refine ⟨?_, ?_, fun E K => ?run⟩
  case run =>
    simp only [cc0__lp_body_eq_skeleton]; unfold cc0__lp_body_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexact H2
    iexact HS

end Cert.KernelIdeal.Gen

end
-- ==== Proof.KI.Spec.lean ====
import proofs.«174310_g75393855914571_cont_9to1_m_809_4_alg».proof.Proof.Gen.KernelIdeal.Skeleton
import Idealize.ShloMosaic.Lib.ValueIdx

noncomputable section

/-! ## Label propagation, one layer at a time

The state is a 4096 × 16 array of labels. One layer replaces the state `o` by
`clip (½ · (adj · o) + ½ · y) 0 1`; the kernel computes a layer in eight blocks of 512 rows, block `b` from the
whole previous state, rows `512·b … 512·b + 511` of the adjacency matrix and the same rows of `y`. `kstep` is
that layer as the body's arithmetic spells it (the payload `k0_pay3`), `klayer l` the state after `l` layers. -/

namespace Cert.KernelIdeal.LP

open Idealize.ShloMosaic Idealize.ShloMosaic.ValueIdx Cert.KernelIdeal Cert.KernelIdeal.Gen

variable {F : FTy → Type} [FloatOps F]

/-- A label array seen as one half of the two-slot scratch: a leading axis of extent one. -/
def slab (o : Vec F S4096x16 .f32) : Vec F S1x4096x16 .f32 := fun z => o (ix2 (z 1) (z 2))

theorem blk_row_lt {b p : ℕ} (hb : b < 8) (hp : p < 512) : 512 * b + p < 4096 := by omega

/-- Rows `512·b …` of the adjacency matrix. -/
def adjBlk (adj : Vec F S4096x4096 .f32) (b : Fin 8) : Vec F S512x4096 .f32 :=
  fun z => adj (ix2 (⟨512 * b.val + (z 0).val, blk_row_lt b.isLt (z 0).isLt⟩ : Fin 4096) (z 1))

/-- Rows `512·b …` of a label array. -/
def rowBlk (y : Vec F S4096x16 .f32) (b : Fin 8) : Vec F S512x16 .f32 :=
  fun z => y (ix2 (⟨512 * b.val + (z 0).val, blk_row_lt b.isLt (z 0).isLt⟩ : Fin 4096) (z 1))

theorem row_div_lt {r : ℕ} (hr : r < 4096) : r / 512 < 8 := by omega
theorem row_mod_lt (r : ℕ) : r % 512 < 512 := Nat.mod_lt _ (by decide)

/-- One layer, as the kernel's arithmetic computes it block by block. -/
def kstep (y : Vec F S4096x16 .f32) (adj : Vec F S4096x4096 .f32) (o : Vec F S4096x16 .f32) : Vec F S4096x16 .f32 :=
  fun j => k0_pay3 (slab o) (adjBlk adj ⟨(j 0).val / 512, row_div_lt (j 0).isLt⟩) (rowBlk y ⟨(j 0).val / 512, row_div_lt (j 0).isLt⟩)
    (ix2 (⟨(j 0).val % 512, row_mod_lt _⟩ : Fin 512) (j 1))

/-- The state after `l` layers. -/
def klayer (y : Vec F S4096x16 .f32) (adj : Vec F S4096x4096 .f32) : ℕ → Vec F S4096x16 .f32
  | 0 => y
  | l + 1 => kstep y adj (klayer y adj l)

theorem klayer_zero (y : Vec F S4096x16 .f32) (adj : Vec F S4096x4096 .f32) : klayer y adj 0 = y := rfl
theorem klayer_succ (y : Vec F S4096x16 .f32) (adj : Vec F S4096x4096 .f32) (l : ℕ) :
    klayer y adj (l + 1) = kstep y adj (klayer y adj l) := rfl

end Cert.KernelIdeal.LP

end
-- ==== Proof.KI.Blocks.lean ====
import proofs.«174310_g75393855914571_cont_9to1_m_809_4_alg».proof.Proof.KI.Sched
import proofs.«174310_g75393855914571_cont_9to1_m_809_4_alg».proof.Proof.KI.Spec
import Idealize.ShloMosaic.Lib.ValueLayout
import Idealize.ShloMosaic.Lib.Pipeline.Value
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The arrays, their blocks, and the scratch between points

Point `n` of the grid is layer `n / 8`, row block `n % 8`. Write `L l` for the label state after `l` layers.
BEFORE point `n` (when `n > 0`) slot `(n/8) % 2` of the scratch holds `L (n/8)` in all its rows, and the other
slot holds `L (n/8 + 1)` in its first `512 · (n % 8)` rows; AFTER point `n` the same with `512 · (n % 8 + 1)` rows.
The point computes rows `512·(n%8) …` of `L (n/8 + 1)` from the full slot and stores them into the other one. -/

/-- The label array `y` and the adjacency matrix as the region finds them. -/
def yArr (c : Dev nD) : Vec F S4096x16 .f32 := V m c main_arg0
def adjArr (c : Dev nD) : Vec F S4096x4096 .f32 := V m c main_arg1

/-- The label state after `l` layers. -/
def KL (c : Dev nD) (l : ℕ) : Vec F S4096x16 .f32 := LP.klayer (yArr m c) (adjArr m c) l

/-- The window of `y` is the whole array at every point. -/
theorem iblk0_eq (c : Dev nD) (t : Fin cfg0.N) : iblk m c 0 t = yArr m c := by
  funext j
  show V m c main_arg0 (((cfg0.win 0).blk t).view.emb j) = V m c main_arg0 j
  obtain ⟨e0, e1, -⟩ := idx_facts t
  have h : ((cfg0.win 0).blk t).view.emb j = j := by
    funext a; apply Fin.ext
    match a with
    | ⟨0, _⟩ => show win0_0.index t (0 : Fin 2) * 4096 + 1 * (j 0).val = (j 0).val; omega
    | ⟨1, _⟩ => show win0_0.index t (1 : Fin 2) * 16 + 1 * (j 1).val = (j 1).val; omega
  rw [h]

theorem mod8_lt (n : ℕ) : n % 8 < 8 := Nat.mod_lt _ (by decide)

/-- The adjacency window at point `t` is rows `512 · (t % 8) …` of the matrix. -/
theorem iblk1_eq (c : Dev nD) (t : Fin cfg0.N) : iblk m c 1 t = LP.adjBlk (adjArr m c) ⟨t.val % 8, mod8_lt _⟩ := by
  funext j
  show V m c main_arg1 (((cfg0.win 1).blk t).view.emb j) = V m c main_arg1 _
  obtain ⟨-, -, e2, e3, -⟩ := idx_facts t
  refine congrArg (V m c main_arg1) ?_
  funext a; apply Fin.ext
  match a with
  | ⟨0, _⟩ => show win0_1.index t (0 : Fin 2) * 512 + 1 * (j 0).val = 512 * (t.val % 8) + (j 0).val; omega
  | ⟨1, _⟩ => show win0_1.index t (1 : Fin 2) * 4096 + 1 * (j 1).val = (j 1).val; omega

/-- The scratch before point `n`. -/
def SBefore (c : Dev nD) (n : ℕ) (d : Vec F S2x4096x16 .f32) : Prop :=
  (∀ z : S2x4096x16.Idx, (z 0).val = (n / 8) % 2 → d z = KL m c (n / 8) (ix2 (z 1) (z 2))) ∧
  (∀ z : S2x4096x16.Idx, (z 0).val = (n / 8 + 1) % 2 → (z 1).val < 512 * (n % 8) → d z = KL m c (n / 8 + 1) (ix2 (z 1) (z 2)))

/-- The scratch after point `n`. -/
def SAfter (c : Dev nD) (n : ℕ) (d : Vec F S2x4096x16 .f32) : Prop :=
  (∀ z : S2x4096x16.Idx, (z 0).val = (n / 8) % 2 → d z = KL m c (n / 8) (ix2 (z 1) (z 2))) ∧
  (∀ z : S2x4096x16.Idx, (z 0).val = (n / 8 + 1) % 2 → (z 1).val < 512 * (n % 8 + 1) → d z = KL m c (n / 8 + 1) (ix2 (z 1) (z 2)))

/-- What point `n` leaves is what point `n + 1` needs: within a layer one more block of the new state is there; at a
    layer's last block the new state is complete and becomes the one read. -/
theorem sbefore_succ (c : Dev nD) (n : ℕ) (d : Vec F S2x4096x16 .f32) (h : SAfter m c n d) : SBefore m c (n + 1) d := by
  obtain ⟨h1, h2⟩ := h
  by_cases hb : n % 8 = 7
  · have e1 : (n + 1) / 8 = n / 8 + 1 := by omega
    have e2 : (n + 1) % 8 = 0 := by omega
    refine ⟨fun z hz => ?_, fun z hz hlt => ?_⟩
    · rw [e1] at hz ⊢
      have hz1 : (z 1).val < 4096 := (z 1).isLt
      exact h2 z hz (by omega)
    · rw [e2] at hlt; omega
  · have e1 : (n + 1) / 8 = n / 8 := by omega
    have e2 : (n + 1) % 8 = n % 8 + 1 := by omega
    refine ⟨fun z hz => ?_, fun z hz hlt => ?_⟩
    · rw [e1] at hz ⊢; exact h1 z hz
    · rw [e1] at hz ⊢; rw [e2] at hlt; exact h2 z hz hlt

/-! ### The three loads of a point -/

/-- The slot the layer reads, loaded whole, is the current state. -/
theorem ld_slab (c : Dev nD) (t : Fin cfg0.N) (xs : Vec F S2x4096x16 .f32)
    (h : ∀ z : S2x4096x16.Idx, (z 0).val = (t.val / 8) % 2 → xs z = KL m c (t.val / 8) (ix2 (z 1) (z 2))) :
    View.ld xs (Rect.unit (s := S2x4096x16) (k0_off1 (grid0.coords t)) S1x4096x16.size (k0_off1_inb (grid0.coords t)))
      = LP.slab (KL m c (t.val / 8)) := by
  funext z
  obtain ⟨o0, o1, o2, -⟩ := off_facts t
  have hz0 : (z 0).val < 1 := (z 0).isLt
  show xs ((Rect.unit (s := S2x4096x16) (k0_off1 (grid0.coords t)) S1x4096x16.size (k0_off1_inb (grid0.coords t))).idx z) = _
  rw [h _ (by show k0_off1 (grid0.coords t) (0 : Fin 3) + 1 * (z 0).val = _; omega)]
  show KL m c (t.val / 8) _ = KL m c (t.val / 8) (ix2 (z 1) (z 2))
  refine congrArg (KL m c (t.val / 8)) ?_
  funext a; apply Fin.ext
  match a with
  | ⟨0, _⟩ => show k0_off1 (grid0.coords t) (1 : Fin 3) + 1 * (z 1).val = (z 1).val; omega
  | ⟨1, _⟩ => show k0_off1 (grid0.coords t) (2 : Fin 3) + 1 * (z 2).val = (z 2).val; omega

/-- The rows of `y` the point loads are its row block. -/
theorem ld_rows (c : Dev nD) (t : Fin cfg0.N) :
    View.ld (yArr m c) (Rect.unit (s := S4096x16) (k0_off2 (grid0.coords t)) S512x16.size (k0_off2_inb (grid0.coords t)))
      = LP.rowBlk (yArr m c) ⟨t.val % 8, mod8_lt _⟩ := by
  funext z
  obtain ⟨-, -, -, o0, o1, -⟩ := off_facts t
  show yArr m c _ = yArr m c _
  refine congrArg (yArr m c) ?_
  funext a; apply Fin.ext
  match a with
  | ⟨0, _⟩ => show k0_off2 (grid0.coords t) (0 : Fin 2) + 1 * (z 0).val = 512 * (t.val % 8) + (z 0).val; omega
  | ⟨1, _⟩ => show k0_off2 (grid0.coords t) (1 : Fin 2) + 1 * (z 1).val = (z 1).val; omega

theorem hz2 : (![0, 0] : Fin 2 → Nat) = fun _ => 0 := funext fun a => by fin_cases a <;> rfl

/-- One layer at row `512·b + p` is the body's arithmetic on block `b` at row `p`. -/
theorem kstep_at (y : Vec F S4096x16 .f32) (adj : Vec F S4096x4096 .f32) (o : Vec F S4096x16 .f32) (b : Fin 8) (p : Fin 512) (q : Fin 16) :
    LP.kstep y adj o (ix2 (⟨512 * b.val + p.val, LP.blk_row_lt b.isLt p.isLt⟩ : Fin 4096) q)
      = k0_pay3 (LP.slab o) (LP.adjBlk adj b) (LP.rowBlk y b) (ix2 p q) := by
  have key : ∀ (b' : Fin 8) (p' : Fin 512), b' = b → p' = p →
      k0_pay3 (LP.slab o) (LP.adjBlk adj b') (LP.rowBlk y b') (ix2 p' q) = k0_pay3 (LP.slab o) (LP.adjBlk adj b) (LP.rowBlk y b) (ix2 p q) := by
    rintro _ _ rfl rfl; rfl
  exact key _ _ (Fin.ext (by show (512 * b.val + p.val) / 512 = b.val; have := p.isLt; omega))
    (Fin.ext (by show (512 * b.val + p.val) % 512 = p.val; have := p.isLt; omega))

/-- What a point computes: rows `512 · (t % 8) …` of the next state, from a scratch holding the current one. -/
theorem new_eq (c : Dev nD) (t : Fin cfg0.N) (xs : Vec F S2x4096x16 .f32)
    (h : ∀ z : S2x4096x16.Idx, (z 0).val = (t.val / 8) % 2 → xs z = KL m c (t.val / 8) (ix2 (z 1) (z 2)))
    (p : Fin 512) (q : Fin 16) :
    k0_pay3 (View.ld xs (Rect.unit (s := S2x4096x16) (k0_off1 (grid0.coords t)) S1x4096x16.size (k0_off1_inb (grid0.coords t))))
        (View.ld (iblk m c 1 t) (Rect.unit (s := S512x4096) ![0, 0] S512x4096.size inb_S512x4096_S512x4096_0_0))
        (View.ld (iblk m c 0 t) (Rect.unit (s := S4096x16) (k0_off2 (grid0.coords t)) S512x16.size (k0_off2_inb (grid0.coords t))))
        (ix2 p q)
      = KL m c (t.val / 8 + 1) (ix2 (⟨512 * (t.val % 8) + p.val, LP.blk_row_lt (mod8_lt _) p.isLt⟩ : Fin 4096) q) := by
  rw [ld_slab m c t xs h, View.ld_unit_zero (S := S512x4096) hz2, iblk0_eq, ld_rows, iblk1_eq]
  exact (kstep_at (yArr m c) (adjArr m c) (KL m c (t.val / 8)) ⟨t.val % 8, mod8_lt _⟩ p q).symm

end Cert.KernelIdeal.Gen

end
-- ==== Proof.KI.Store.lean ====
import proofs.«174310_g75393855914571_cont_9to1_m_809_4_alg».proof.Proof.KI.Blocks
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## What the point's stores leave

The 512 new rows go into the slot the layer writes, at rows `512 · (t % 8) …`; everything else of the scratch is
as before. During the last layer the same rows go into the output window at the same rows. -/

/-- The rectangle of the scratch the point stores into. -/
abbrev R3 (t : Fin cfg0.N) : Rect S2x4096x16 :=
  Rect.unit (s := S2x4096x16) (k0_off3 (grid0.coords t)) S1x512x16.size (k0_off3_inb (grid0.coords t))

/-- The stored value is the new rows with a leading axis of extent one. -/
theorem pay1_apply (v : FVec F S512x16 .f32) (u : Fin 1) (p : Fin 512) (q : Fin 16) : k0_pay1 v (ix3 u p q) = v (ix2 p q) := by
  unfold k0_pay1
  exact shapeCast_ab_1ab_apply v _ u p q

theorem mem_R3 (t : Fin cfg0.N) (z : S2x4096x16.Idx) :
    z ∈ (R3 t).set ↔ (z 0).val = (t.val / 8 + 1) % 2 ∧ 512 * (t.val % 8) ≤ (z 1).val ∧ (z 1).val < 512 * (t.val % 8) + 512 := by
  obtain ⟨-, -, -, -, -, o0, o1, o2, -⟩ := off_facts t
  rw [Rect.mem_set_unit]
  constructor
  · intro h
    have a0 : k0_off3 (grid0.coords t) (0 : Fin 3) ≤ (z 0).val ∧ (z 0).val < k0_off3 (grid0.coords t) (0 : Fin 3) + 1 := h 0
    have a1 : k0_off3 (grid0.coords t) (1 : Fin 3) ≤ (z 1).val ∧ (z 1).val < k0_off3 (grid0.coords t) (1 : Fin 3) + 512 := h 1
    omega
  · rintro ⟨h0, h1, h2⟩ a
    match a with
    | ⟨0, _⟩ => show k0_off3 (grid0.coords t) (0 : Fin 3) ≤ (z 0).val ∧ (z 0).val < k0_off3 (grid0.coords t) (0 : Fin 3) + 1; omega
    | ⟨1, _⟩ => show k0_off3 (grid0.coords t) (1 : Fin 3) ≤ (z 1).val ∧ (z 1).val < k0_off3 (grid0.coords t) (1 : Fin 3) + 512; omega
    | ⟨2, _⟩ => show k0_off3 (grid0.coords t) (2 : Fin 3) ≤ (z 2).val ∧ (z 2).val < k0_off3 (grid0.coords t) (2 : Fin 3) + 16; have hz2 : (z 2).val < 16 := (z 2).isLt; omega

/-- From the scratch before the point's store to the scratch after it. -/
theorem safter_of_store (c : Dev nD) (t : Fin cfg0.N) (xsL d' : Vec F S2x4096x16 .f32) (new : FVec F S512x16 .f32)
    (hB : SBefore m c t.val xsL)
    (hnew : ∀ (p : Fin 512) (q : Fin 16), new (ix2 p q)
      = KL m c (t.val / 8 + 1) (ix2 (⟨512 * (t.val % 8) + p.val, LP.blk_row_lt (mod8_lt _) p.isLt⟩ : Fin 4096) q))
    (hin : ∀ x : S1x512x16.Idx, d' ((R3 t).emb x) = k0_pay1 new x)
    (hout : ∀ z : S2x4096x16.Idx, z ∉ (R3 t).set → d' z = xsL z) : SAfter m c t.val d' := by
  obtain ⟨-, -, -, -, -, o0, o1, o2, -⟩ := off_facts t
  refine ⟨fun z hz => ?_, fun z hz hlt => ?_⟩
  · rw [hout z (by rw [mem_R3]; omega)]; exact hB.1 z hz
  · by_cases hlo : (z 1).val < 512 * (t.val % 8)
    · rw [hout z (by rw [mem_R3]; omega)]; exact hB.2 z hz hlo
    · have hz2 : (z 2).val < 16 := (z 2).isLt
      have hzz : z = (R3 t).emb (ix3 (0 : Fin 1) (⟨(z 1).val - 512 * (t.val % 8), by omega⟩ : Fin 512) (⟨(z 2).val, hz2⟩ : Fin 16)) := by
        funext a; apply Fin.ext
        match a with
        | ⟨0, _⟩ => show (z 0).val = k0_off3 (grid0.coords t) (0 : Fin 3) + 1 * 0; omega
        | ⟨1, _⟩ => show (z 1).val = k0_off3 (grid0.coords t) (1 : Fin 3) + 1 * ((z 1).val - 512 * (t.val % 8)); omega
        | ⟨2, _⟩ => show (z 2).val = k0_off3 (grid0.coords t) (2 : Fin 3) + 1 * (z 2).val; omega
      rw [congrArg d' hzz, hin, pay1_apply, hnew]
      refine congrArg (KL m c (t.val / 8 + 1)) ?_
      funext a; apply Fin.ext
      match a with
      | ⟨0, _⟩ => show 512 * (t.val % 8) + ((z 1).val - 512 * (t.val % 8)) = (z 1).val; omega
      | ⟨1, _⟩ => rfl

/-- The rectangle of the output window the last layer stores into. -/
abbrev R4 (t : Fin cfg0.N) (h : condEmit (grid0.coords t)) : Rect S4096x16 :=
  Rect.unit (s := S4096x16) (k0_off4 (grid0.coords t)) S512x16.size (k0_off4_inb (grid0.coords t) h)

theorem mem_R4 (t : Fin cfg0.N) (h : condEmit (grid0.coords t)) (j : S4096x16.Idx) :
    j ∈ (R4 t h).set ↔ 512 * (t.val % 8) ≤ (j 0).val ∧ (j 0).val < 512 * (t.val % 8) + 512 := by
  obtain ⟨-, -, -, -, -, -, -, -, o0, o1⟩ := off_facts t
  rw [Rect.mem_set_unit]
  constructor
  · intro h
    have a0 : k0_off4 (grid0.coords t) (0 : Fin 2) ≤ (j 0).val ∧ (j 0).val < k0_off4 (grid0.coords t) (0 : Fin 2) + 512 := h 0
    omega
  · rintro ⟨h0, h1⟩ a
    match a with
    | ⟨0, _⟩ => show k0_off4 (grid0.coords t) (0 : Fin 2) ≤ (j 0).val ∧ (j 0).val < k0_off4 (grid0.coords t) (0 : Fin 2) + 512; omega
    | ⟨1, _⟩ => show k0_off4 (grid0.coords t) (1 : Fin 2) ≤ (j 1).val ∧ (j 1).val < k0_off4 (grid0.coords t) (1 : Fin 2) + 16; have hj1 : (j 1).val < 16 := (j 1).isLt; omega

/-- How a point changes the output window: during the last layer (points 152 … 159) its rows
    `512 · (t % 8) …` become those of the final state; otherwise nothing changes. -/
def OutRel (c : Dev nD) (t : Fin cfg0.N) (Y X : Vec F S4096x16 .f32) : Prop :=
  ∀ j : S4096x16.Idx, X j = if 152 ≤ t.val ∧ 512 * (t.val % 8) ≤ (j 0).val ∧ (j 0).val < 512 * (t.val % 8) + 512 then KL m c 20 j else Y j

theorem outRel_refl (c : Dev nD) (t : Fin cfg0.N) (h : ¬152 ≤ t.val) (Y : Vec F S4096x16 .f32) : OutRel m c t Y Y := fun j => by
  rw [if_neg (fun h' => h h'.1)]

/-- The last layer's store into the output window. -/
theorem outRel_of_store (c : Dev nD) (t : Fin cfg0.N) (h : condEmit (grid0.coords t)) (Y X : Vec F S4096x16 .f32) (new : FVec F S512x16 .f32)
    (hnew : ∀ (p : Fin 512) (q : Fin 16), new (ix2 p q)
      = KL m c (t.val / 8 + 1) (ix2 (⟨512 * (t.val % 8) + p.val, LP.blk_row_lt (mod8_lt _) p.isLt⟩ : Fin 4096) q))
    (hin : ∀ x : S512x16.Idx, X ((R4 t h).emb x) = new x)
    (hout : ∀ j : S4096x16.Idx, j ∉ (R4 t h).set → X j = Y j) : OutRel m c t Y X := fun j => by
  obtain ⟨-, -, -, -, -, -, -, -, o0, o1⟩ := off_facts t
  have ht : 152 ≤ t.val := (hcondEmit t).mp h
  have hN : t.val < 160 := lt_of_lt_of_eq t.isLt (show cfg0.N = 160 from N_0)
  have hl : t.val / 8 + 1 = 20 := by omega
  by_cases hj : 512 * (t.val % 8) ≤ (j 0).val ∧ (j 0).val < 512 * (t.val % 8) + 512
  · rw [if_pos ⟨ht, hj⟩]
    have hj1 : (j 1).val < 16 := (j 1).isLt
    have hjj : j = (R4 t h).emb (ix2 (⟨(j 0).val - 512 * (t.val % 8), by omega⟩ : Fin 512) (⟨(j 1).val, hj1⟩ : Fin 16)) := by
      funext a; apply Fin.ext
      match a with
      | ⟨0, _⟩ => show (j 0).val = k0_off4 (grid0.coords t) (0 : Fin 2) + 1 * ((j 0).val - 512 * (t.val % 8)); omega
      | ⟨1, _⟩ => show (j 1).val = k0_off4 (grid0.coords t) (1 : Fin 2) + 1 * (j 1).val; omega
    rw [congrArg X hjj, hin, hnew, hl]
    refine congrArg (KL m c 20) ?_
    funext a; apply Fin.ext
    match a with
    | ⟨0, _⟩ => show 512 * (t.val % 8) + ((j 0).val - 512 * (t.val % 8)) = (j 0).val; omega
    | ⟨1, _⟩ => rfl
  · rw [if_neg (fun h' => hj h'.2)]
    exact hout j (by rw [mem_R4]; exact hj)

end Cert.KernelIdeal.Gen

end
-- ==== Proof.KI.Pieces.lean ====
import proofs.«174310_g75393855914571_cont_9to1_m_809_4_alg».proof.Proof.KI.Runs
import proofs.«174310_g75393855914571_cont_9to1_m_809_4_alg».proof.Proof.KI.Store
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The stores each case of the body makes, and what they leave in the scratch and the output window -/

/-- The 512 new rows a point computes from what its three loads read. -/
def newOf (t : Fin cfg0.N) (x0 : Vec F S4096x16 .f32) (x1 : Vec F S512x4096 .f32) (xs : Vec F S2x4096x16 .f32) : FVec F S512x16 .f32 :=
  k0_pay3 (View.ld xs (Rect.unit (s := S2x4096x16) (k0_off1 (grid0.coords t)) S1x4096x16.size (k0_off1_inb (grid0.coords t))))
    (View.ld x1 (Rect.unit (s := S512x4096) ![0, 0] S512x4096.size inb_S512x4096_S512x4096_0_0))
    (View.ld x0 (Rect.unit (s := S4096x16) (k0_off2 (grid0.coords t)) S512x16.size (k0_off2_inb (grid0.coords t))))

theorem newOf_eq (c : Dev nD) (t : Fin cfg0.N) (xs : Vec F S2x4096x16 .f32)
    (h : ∀ z : S2x4096x16.Idx, (z 0).val = (t.val / 8) % 2 → xs z = KL m c (t.val / 8) (ix2 (z 1) (z 2))) (p : Fin 512) (q : Fin 16) :
    newOf t (iblk m c 0 t) (iblk m c 1 t) xs (ix2 p q)
      = KL m c (t.val / 8 + 1) (ix2 (⟨512 * (t.val % 8) + p.val, LP.blk_row_lt (mod8_lt _) p.isLt⟩ : Fin 4096) q) :=
  new_eq m c t xs h p q

/-- The copy of `y` into slot 0 at the first point. -/
abbrev initPiece (x0 : Vec F S4096x16 .f32) : View.Piece (Elt F) S2x4096x16 .f32 :=
  ⟨Rect.unit (s := S2x4096x16) ![0, 0, 0] S1x4096x16.size inb_S2x4096x16_S1x4096x16_0_0_0,
    k0_pay2 (View.ld x0 (Rect.unit (s := S4096x16) ![0, 0] S4096x16.size inb_S4096x16_S4096x16_0_0))⟩

theorem runB_pieces (c : Dev nD) (t : Fin cfg0.N) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : ¬condInit (grid0.coords t)) (hc1 : ¬condEmit (grid0.coords t))
    (x0 : Vec F S4096x16 .f32) (x1 : Vec F S512x4096 .f32) (xs : Vec F S2x4096x16 .f32) :
    (kernelRun_B c (grid0.coords t) arg2 harg2 arg3 harg3 arg4 harg4 arg5 harg5 hc0 hc1 x0 x1 xs).1 = [⟨R3 t, k0_pay1 (newOf t x0 x1 xs)⟩] := by
  unfold kernelRun_B newOf
  dsimp only
  sl_unfold_run_names
  simp only [View.readAt_eq_ld, Memref.IsWhole.read_unread]

theorem runC_pieces (c : Dev nD) (t : Fin cfg0.N) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : ¬condInit (grid0.coords t)) (hc1 : condEmit (grid0.coords t))
    (x0 : Vec F S4096x16 .f32) (x1 : Vec F S512x4096 .f32) (xi2 : Vec F S4096x16 .f32) (xs : Vec F S2x4096x16 .f32) :
    (kernelRun_C c (grid0.coords t) arg2 harg2 arg3 harg3 arg4 harg4 arg5 harg5 hc0 hc1 x0 x1 xi2 xs).1 = [⟨R4 t hc1, newOf t x0 x1 xs⟩]
    ∧ (kernelRun_C c (grid0.coords t) arg2 harg2 arg3 harg3 arg4 harg4 arg5 harg5 hc0 hc1 x0 x1 xi2 xs).2.1 = [⟨R3 t, k0_pay1 (newOf t x0 x1 xs)⟩] := by
  unfold kernelRun_C newOf
  dsimp only
  sl_unfold_run_names
  simp only [View.readAt_eq_ld, Memref.IsWhole.read_unread, and_self]

theorem runA_pieces (c : Dev nD) (t : Fin cfg0.N) (ht : t.val = 0) (arg2 : Memref sig .tc .vmem S4096x16 .f32) (harg2 : arg2.IsWhole) (arg3 : Memref sig .tc .vmem S512x4096 .f32) (harg3 : arg3.IsWhole) (arg4 : Memref sig .tc .vmem S4096x16 .f32) (harg4 : arg4.IsWhole) (arg5 : Memref sig .tc .vmem S2x4096x16 .f32) (harg5 : arg5.IsWhole)
    (hc0 : condInit (grid0.coords t)) (hc1 : ¬condEmit (grid0.coords t))
    (x0 : Vec F S4096x16 .f32) (x1 : Vec F S512x4096 .f32) (xs : Vec F S2x4096x16 .f32) :
    (kernelRun_A c t ht arg2 harg2 arg3 harg3 arg4 harg4 arg5 harg5 hc0 hc1 x0 x1 xs).1
      = [⟨R3 t, k0_pay1 (newOf t x0 x1 (arg5.view.read (Elt F) (arg5.view.writes (Elt F) (harg5.unread xs) [initPiece x0])))⟩, initPiece x0] := by
  unfold kernelRun_A newOf
  dsimp only
  sl_unfold_run_names
  simp only [View.readAt_eq_ld, Memref.IsWhole.read_unread]

/-- Reading through one more store: under it, its value; off it, what was there. -/
theorem read_store_in {s : Shape} (v : Memref sig .tc .vmem s .f32) (f : v.view.ty.Contents (Elt F)) (r : Rect s) (w : r.shape.Idx → Elt F .f32)
    (L : List (View.Piece (Elt F) s .f32)) (x : r.shape.Idx) :
    v.view.read (Elt F) (v.view.writes (Elt F) f (⟨r, w⟩ :: L)) (r.emb x) = w x :=
  View.read_writes_cons_emb v.view f r w L x

theorem read_store_out {s : Shape} (v : Memref sig .tc .vmem s .f32) (f : v.view.ty.Contents (Elt F)) (r : Rect s) (w : r.shape.Idx → Elt F .f32)
    (L : List (View.Piece (Elt F) s .f32)) (z : s.Idx) (hz : z ∉ r.set) :
    v.view.read (Elt F) (v.view.writes (Elt F) f (⟨r, w⟩ :: L)) z = v.view.read (Elt F) (v.view.writes (Elt F) f L) z := by
  rw [View.writes_cons, View.read_slice_write_of_not_mem r _ _ _ (by rw [Rect.map_emb_univ]; exact hz)]

/-- After a point that is not the first. -/
theorem scratch_after (c : Dev nD) (t : Fin cfg0.N) (arg5 : Memref sig .tc .vmem S2x4096x16 .f32) (harg5 : arg5.IsWhole)
    (d : Vec F S2x4096x16 .f32) (hB : SBefore m c t.val d) :
    SAfter m c t.val (arg5.view.read (Elt F) (arg5.view.writes (Elt F) (harg5.unread d)
      [⟨R3 t, k0_pay1 (newOf t (iblk m c 0 t) (iblk m c 1 t) d)⟩])) :=
  safter_of_store m c t d _ (newOf t (iblk m c 0 t) (iblk m c 1 t) d) hB (newOf_eq m c t d hB.1)
    (fun x => read_store_in arg5 _ (R3 t) _ [] x)
    (fun z hz => (read_store_out arg5 _ (R3 t) _ [] z hz).trans (congrFun (harg5.read_unread d) z))

theorem pay2_apply (v : Vec F S4096x16 .f32) (u : Fin 1) (p : Fin 4096) (q : Fin 16) : k0_pay2 v (ix3 u p q) = v (ix2 p q) := by
  unfold k0_pay2
  exact shapeCast_ab_1ab_apply v _ u p q

theorem hz3 : (![0, 0, 0] : Fin 3 → Nat) = fun _ => 0 := funext fun a => by fin_cases a <;> rfl

/-- After the copy-in at the first point, slot 0 holds `y`, the state after no layer. -/
theorem sbefore_init (c : Dev nD) (t : Fin cfg0.N) (ht : t.val = 0) (arg5 : Memref sig .tc .vmem S2x4096x16 .f32) (harg5 : arg5.IsWhole)
    (d : Vec F S2x4096x16 .f32) :
    SBefore m c t.val (arg5.view.read (Elt F) (arg5.view.writes (Elt F) (harg5.unread d) [initPiece (iblk m c 0 t)])) := by
  refine ⟨fun z hz => ?_, fun z hz hlt => by rw [ht] at hlt; omega⟩
  rw [ht] at hz ⊢
  have hz0 : (z 0).val = 0 := by omega
  have hzc1 : (z 1).val < 4096 := (z 1).isLt
  have hzc2 : (z 2).val < 16 := (z 2).isLt
  have hzz : z = (Rect.unit (s := S2x4096x16) ![0, 0, 0] S1x4096x16.size inb_S2x4096x16_S1x4096x16_0_0_0).emb
      (ix3 (0 : Fin 1) (⟨(z 1).val, hzc1⟩ : Fin 4096) (⟨(z 2).val, hzc2⟩ : Fin 16)) := by
    funext a; apply Fin.ext
    match a with
    | ⟨0, _⟩ => show (z 0).val = 0 + 1 * 0; omega
    | ⟨1, _⟩ => show (z 1).val = 0 + 1 * (z 1).val; omega
    | ⟨2, _⟩ => show (z 2).val = 0 + 1 * (z 2).val; omega
  rw [congrArg (arg5.view.read (Elt F) (arg5.view.writes (Elt F) (harg5.unread d) [initPiece (iblk m c 0 t)])) hzz]
  rw [read_store_in arg5 _ _ _ [] _, pay2_apply, View.ld_unit_zero (S := S4096x16) hz2, iblk0_eq]
  rfl

/-- After the first point. -/
theorem scratch_after_first (c : Dev nD) (t : Fin cfg0.N) (ht : t.val = 0) (arg5 : Memref sig .tc .vmem S2x4096x16 .f32) (harg5 : arg5.IsWhole)
    (d : Vec F S2x4096x16 .f32) :
    SAfter m c t.val (arg5.view.read (Elt F) (arg5.view.writes (Elt F) (harg5.unread d)
      [⟨R3 t, k0_pay1 (newOf t (iblk m c 0 t) (iblk m c 1 t)
          (arg5.view.read (Elt F) (arg5.view.writes (Elt F) (harg5.unread d) [initPiece (iblk m c 0 t)])))⟩, initPiece (iblk m c 0 t)])) :=
  safter_of_store m c t _ _ _ (sbefore_init m c t ht arg5 harg5 d) (newOf_eq m c t _ (sbefore_init m c t ht arg5 harg5 d).1)
    (fun x => read_store_in arg5 _ (R3 t) _ _ x)
    (fun z hz => read_store_out arg5 _ (R3 t) _ _ z hz)

/-- The output window after a point of the last layer. -/
theorem out_after (c : Dev nD) (t : Fin cfg0.N) (hc1 : condEmit (grid0.coords t)) (arg4 : Memref sig .tc .vmem S4096x16 .f32) (harg4 : arg4.IsWhole)
    (Y : Vec F S4096x16 .f32) (d : Vec F S2x4096x16 .f32) (hB : SBefore m c t.val d) :
    OutRel m c t Y (arg4.view.read (Elt F) (arg4.view.writes (Elt F) (harg4.unread Y)
      [⟨R4 t hc1, newOf t (iblk m c 0 t) (iblk m c 1 t) d⟩])) :=
  outRel_of_store m c t hc1 Y _ (newOf t (iblk m c 0 t) (iblk m c 1 t) d) (newOf_eq m c t d hB.1)
    (fun x => read_store_in arg4 _ (R4 t hc1) _ [] x)
    (fun z hz => (read_store_out arg4 _ (R4 t hc1) _ [] z hz).trans (congrFun (harg4.read_unread Y) z))

end Cert.KernelIdeal.Gen

end
-- ==== Proof.KI.Data.lean ====
import proofs.«174310_g75393855914571_cont_9to1_m_809_4_alg».proof.Proof.KI.Pieces
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

/-! ## The proof data of the one pipeline

The two input windows are left as found; the output window changes by `OutRel`; between points the region keeps
the scratch, at contents satisfying `SAfter` of the point just run (before the first point: at anything). -/

/-- Each window's current staging memref at point `t`, as the pipeline passes it to the body, and the scratch. -/
abbrev ms0 (t : Fin cfg0.N) : Memref sig .tc .vmem S4096x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x16 .f32 := win0_2.stage (cfg0.slots t 2)
abbrev hs2 (t : Fin cfg0.N) : (ms2 t).IsWhole := hstage0_2 ((cfg0.slots t 2).cast nbuf0_2)
abbrev scM : Memref sig .tc .vmem S2x4096x16 .f32 := Memref.whole cc0_scratch0

/-- What the region holds besides the windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region's invariant before position `n`. -/
def PhiS (c : Dev nD) : (n : ℕ) → sProp 𝕄
  | 0 => Pipeline.ΦA spec0 c
  | n + 1 => iprop(iprop(∃ d, ⌜SAfter m c n d⌝ ∗ owns (c : Thread nD τ) scM fullShare d) ∗ (∃ r, prngReg c r))

theorem PhiS_zero (c : Dev nD) (n : ℕ) (hz : n = 0) : PhiS m c n = Pipeline.ΦA spec0 c := by subst hz; rfl
theorem PhiS_succ (c : Dev nD) (n : ℕ) :
    PhiS m c (n + 1) = iprop(iprop(∃ d, ⌜SAfter m c n d⌝ ∗ owns (c : Thread nD τ) scM fullShare d) ∗ (∃ r, prngReg c r)) := rfl
theorem PhiS_pos (c : Dev nD) (n : ℕ) (hz : n ≠ 0) :
    PhiS m c n = iprop(iprop(∃ d, ⌜SAfter m c (n - 1) d⌝ ∗ owns (c : Thread nD τ) scM fullShare d) ∗ (∃ r, prngReg c r)) := by
  cases n with
  | zero => exact absurd rfl hz
  | succ n => rfl

/-- The relational proof data on core `c`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => OutRel m c t Y X
  Φ t := PhiS m c t.val
  q _ := fullShare
  owed _ := 0

theorem rdat_A (c : Dev nD) (w : Fin cfg0.W) : (rdat m c).A w = V m c (Pipeline.arrRef spec0 w) := by dsimp only [rdat]
theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = OutRel m c t Y X := by dsimp only [rdat]

/-- Whatever the body finds in the window of `y` is the array `y`: fetched at the first point, left in place since. -/
theorem finds0 (c : Dev nD) (t : Fin cfg0.N) (Y) (h : (rdat m c).Finds 0 t Y) : Y = iblk m c 0 t := by
  obtain ⟨d, hd⟩ := Pipeline.RDat.finds_in_eq_fetched (rdat m c) 0 rfl (fun _ _ _ => rfl)
    (fun t Y X hR => by rw [after_0] at hR; exact hR) t Y h
  rw [hd]; unfold RDat.fetched RDat.blockOf iblk; rw [rdat_A]; try rfl

/-- Whatever it finds in the adjacency window is this point's rows: the window is fetched at every point. -/
theorem finds1 (c : Dev nD) (t : Fin cfg0.N) (Y) (h : (rdat m c).Finds 1 t Y) : Y = iblk m c 1 t := by
  obtain ⟨d, hd⟩ := Pipeline.RDat.finds_in_eq_fetched (rdat m c) 1 rfl (fun _ _ _ => rfl)
    (fun t Y X hR => by rw [after_1] at hR; exact hR) t Y h
  rw [hd]; unfold RDat.fetched RDat.blockOf iblk; rw [rdat_A]; try rfl

end Cert.KernelIdeal.Gen

end
-- ==== Proof.KI.BodyDefs.lean ====
import proofs.«174310_g75393855914571_cont_9to1_m_809_4_alg».proof.Proof.KI.Data
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

/-! ## The body obligation's two sides at a point -/

/-- What the body is called with at point `t`, -/
def bodyPre (c : Dev nD) (t : Fin cfg0.N) (Y2 : Vec F S4096x16 .f32) : sProp 𝕄 :=
  iprop(PhiS m c t.val ∗ (rdat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare Y2)

/-- and what it returns. -/
def bodyPost (c : Dev nD) (t : Fin cfg0.N) (Y2 : Vec F S4096x16 .f32) : sProp 𝕄 :=
  iprop(PhiS m c (t.val + 1) ∗ (rdat m c).owesAt () t.castSucc
    ∗ (∃ X, ⌜X = iblk m c 0 t⌝ ∗ owns (c : Thread nD τ) (ms0 t) fullShare X)
    ∗ (∃ X, ⌜X = iblk m c 1 t⌝ ∗ owns (c : Thread nD τ) (ms1 t) fullShare X)
    ∗ (∃ X, ⌜OutRel m c t Y2 X⌝ ∗ owns (c : Thread nD τ) (ms2 t) fullShare X))

/-- The scratch before a point that is not the first, from what the point before left. -/
theorem sbefore_of_pos (c : Dev nD) (t : Fin cfg0.N) (hz : t.val ≠ 0) (d : Vec F S2x4096x16 .f32) (hd : SAfter m c (t.val - 1) d) :
    SBefore m c t.val d := by
  have := sbefore_succ m c (t.val - 1) d hd
  rwa [Nat.sub_add_cancel (Nat.one_le_iff_ne_zero.mpr hz)] at this

end Cert.KernelIdeal.Gen

end
-- ==== Proof.KI.BodyA.lean ====
import proofs.«174310_g75393855914571_cont_9to1_m_809_4_alg».proof.Proof.KI.BodyDefs
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

set_option maxHeartbeats 2000000 in
/-- The body at the first point: the scratch comes in at anything. -/
theorem sound_body_A (c : Dev nD) (t : Fin cfg0.N) (Y2 : Vec F S4096x16 .f32) (hz : t.val = 0) :
    bodyPre m c t Y2 ⊢ wp frame (wpE (defs₀ (F := F)) Variants.none c none) Set.univ (bodyAt0 t) (fun _ => bodyPost m c t Y2) := by
  unfold bodyPre bodyPost bodyAt0
  rw [PhiS_succ]
  have hc0 : condInit (grid0.coords t) := (hcondInit t).mpr hz
  have hc1 : ¬condEmit (grid0.coords t) := fun h => by have := (hcondEmit t).mp h; omega
  rw [PhiS_zero m c _ hz, PhiA_eq]
  iintro ⟨⟨⟨%d, HS⟩, Hg⟩, Ho, H0, H1, H2⟩
  iapply ((kernelRun_A c t hz _ _ _ _ _ _ scM (Memref.isWhole_whole _) hc0 hc1 (iblk m c 0 t) (iblk m c 1 t) d).2 Y2 Set.univ _)
  isplitl [H0]; · iexact H0
  isplitl [H1]; · iexact H1
  isplitl [H2]; · iexact H2
  isplitl [HS]; · iexact HS
  iintro ⟨H0, H1, H2, HS⟩
  isplitl [HS Hg]
  · isplitl [HS]
    · iexists _; isplitr
      swap
      · iapply (owns_intro (c : Thread nD τ) scM fullShare _); iexact HS
      ipureintro
      rw [runA_pieces]
      exact scratch_after_first m c t hz scM (Memref.isWhole_whole _) d
    · iexact Hg
  isplitl [Ho]; · iexact Ho
  isplitl [H0]; · iexists _; isplitr; · ipureintro; rfl
                  iexact H0
  isplitl [H1]; · iexists _; isplitr; · ipureintro; rfl
                  iexact H1
  iexists _; isplitr; · ipureintro; exact outRel_refl m c t (by omega) Y2
  iexact H2

end Cert.KernelIdeal.Gen

end
-- ==== Proof.KI.BodyB.lean ====
import proofs.«174310_g75393855914571_cont_9to1_m_809_4_alg».proof.Proof.KI.BodyDefs
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

set_option maxHeartbeats 2000000 in
/-- The body at a later point of layers 0 … 18: the scratch comes in as the point before left it. -/
theorem sound_body_B (c : Dev nD) (t : Fin cfg0.N) (Y2 : Vec F S4096x16 .f32) (hz : t.val ≠ 0) (he : ¬152 ≤ t.val) :
    bodyPre m c t Y2 ⊢ wp frame (wpE (defs₀ (F := F)) Variants.none c none) Set.univ (bodyAt0 t) (fun _ => bodyPost m c t Y2) := by
  unfold bodyPre bodyPost bodyAt0
  rw [PhiS_succ]
  have hc0 : ¬condInit (grid0.coords t) := fun h => hz ((hcondInit t).mp h)
  have hc1 : ¬condEmit (grid0.coords t) := fun h => he ((hcondEmit t).mp h)
  rw [PhiS_pos m c _ hz]
  iintro ⟨⟨⟨%d, %hd, HS⟩, Hg⟩, Ho, H0, H1, H2⟩
  have hB : SBefore m c t.val d := sbefore_of_pos m c t hz d hd
  iapply ((kernelRun_B c (grid0.coords t) _ _ _ _ _ _ scM (Memref.isWhole_whole _) hc0 hc1 (iblk m c 0 t) (iblk m c 1 t) d).2 Y2 Set.univ _)
  isplitl [H0]; · iexact H0
  isplitl [H1]; · iexact H1
  isplitl [H2]; · iexact H2
  isplitl [HS]; · iexact HS
  iintro ⟨H0, H1, H2, HS⟩
  isplitl [HS Hg]
  · isplitl [HS]
    · iexists _; isplitr
      swap
      · iapply (owns_intro (c : Thread nD τ) scM fullShare _); iexact HS
      ipureintro
      rw [runB_pieces]
      exact scratch_after m c t scM (Memref.isWhole_whole _) d hB
    · iexact Hg
  isplitl [Ho]; · iexact Ho
  isplitl [H0]; · iexists _; isplitr; · ipureintro; rfl
                  iexact H0
  isplitl [H1]; · iexists _; isplitr; · ipureintro; rfl
                  iexact H1
  iexists _; isplitr; · ipureintro; exact outRel_refl m c t he Y2
  iexact H2

end Cert.KernelIdeal.Gen

end
-- ==== Proof.KI.BodyC.lean ====
import proofs.«174310_g75393855914571_cont_9to1_m_809_4_alg».proof.Proof.KI.BodyDefs
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

set_option maxHeartbeats 2000000 in
/-- The body at a point of the last layer: the new rows also go to the output window. -/
theorem sound_body_C (c : Dev nD) (t : Fin cfg0.N) (Y2 : Vec F S4096x16 .f32) (hz : t.val ≠ 0) (he : 152 ≤ t.val) :
    bodyPre m c t Y2 ⊢ wp frame (wpE (defs₀ (F := F)) Variants.none c none) Set.univ (bodyAt0 t) (fun _ => bodyPost m c t Y2) := by
  unfold bodyPre bodyPost bodyAt0
  rw [PhiS_succ]
  have hc0 : ¬condInit (grid0.coords t) := fun h => hz ((hcondInit t).mp h)
  have hc1 : condEmit (grid0.coords t) := (hcondEmit t).mpr he
  rw [PhiS_pos m c _ hz]
  iintro ⟨⟨⟨%d, %hd, HS⟩, Hg⟩, Ho, H0, H1, H2⟩
  have hB : SBefore m c t.val d := sbefore_of_pos m c t hz d hd
  iapply ((kernelRun_C c (grid0.coords t) _ _ _ _ _ _ scM (Memref.isWhole_whole _) hc0 hc1 (iblk m c 0 t) (iblk m c 1 t) Y2 d).2.2 Set.univ _)
  isplitl [H0]; · iexact H0
  isplitl [H1]; · iexact H1
  isplitl [H2]; · iexact H2
  isplitl [HS]; · iexact HS
  iintro ⟨H0, H1, H2, HS⟩
  isplitl [HS Hg]
  · isplitl [HS]
    · iexists _; isplitr
      swap
      · iapply (owns_intro (c : Thread nD τ) scM fullShare _); iexact HS
      ipureintro
      rw [(runC_pieces c t _ _ _ _ _ _ scM (Memref.isWhole_whole _) hc0 hc1 (iblk m c 0 t) (iblk m c 1 t) Y2 d).2]
      exact scratch_after m c t scM (Memref.isWhole_whole _) d hB
    · iexact Hg
  isplitl [Ho]; · iexact Ho
  isplitl [H0]; · iexists _; isplitr; · ipureintro; rfl
                  iexact H0
  isplitl [H1]; · iexists _; isplitr; · ipureintro; rfl
                  iexact H1
  iexists _; isplitr
  swap
  · iapply (owns_intro (c : Thread nD τ) (ms2 t) fullShare _); iexact H2
  ipureintro
  rw [(runC_pieces c t _ _ _ _ _ _ scM (Memref.isWhole_whole _) hc0 hc1 (iblk m c 0 t) (iblk m c 1 t) Y2 d).1]
  exact out_after m c t hc1 (ms2 t) (hs2 t) Y2 d hB

end Cert.KernelIdeal.Gen

end
-- ==== Proof.KI.Body.lean ====
import proofs.«174310_g75393855914571_cont_9to1_m_809_4_alg».proof.Proof.KI.BodyA
import proofs.«174310_g75393855914571_cont_9to1_m_809_4_alg».proof.Proof.KI.BodyB
import proofs.«174310_g75393855914571_cont_9to1_m_809_4_alg».proof.Proof.KI.BodyC
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)
/-- The library's body obligation over the relational data, at every point. -/
theorem body_obligation (c : Dev nD) : (rdat (F := F) m c).BodyObligation (defs₀ (F := F)) Variants.none () Set.univ := fun t Y hY => by
  rw [bigSep_W0, bigSep_W0]
  have h0 := finds0 m c t (Y 0) (hY 0)
  have h1 := finds1 m c t (Y 1) (hY 1)
  have key : bodyPre m c t (Y 2) ⊢ wp frame (wpE (defs₀ (F := F)) Variants.none c none) Set.univ (bodyAt0 t) (fun _ => bodyPost m c t (Y 2)) := by
    by_cases hz : t.val = 0
    · exact sound_body_A m c t (Y 2) hz
    · by_cases he : 152 ≤ t.val
      · exact sound_body_C m c t (Y 2) hz he
      · exact sound_body_B m c t (Y 2) hz he
  unfold bodyPre bodyPost at key
  rw [← h0, ← h1] at key
  exact key

/-- What the launch hands the region is the invariant before the first point. -/
theorem hin (c : Dev nD) : Pipeline.ΦA spec0 c ⊢ (rdat m c).Φ 0 := by
  rw [show (rdat m c).Φ 0 = PhiS m c 0 from rfl, PhiS_zero m c 0 rfl]
  try exact Idealize.SL.BI.Entails.refl _

/-- After the last point the invariant gives the scratch back at some contents. -/
theorem hout (c : Dev nD) : (rdat m c).Φ (Fin.last cfg0.N) ⊢ Pipeline.ΦA spec0 c := by
  rw [show (rdat m c).Φ (Fin.last cfg0.N) = PhiS m c (Fin.last cfg0.N).val from rfl,
    PhiS_pos m c _ (by rw [Fin.val_last]; have : cfg0.N = 160 := N_0; omega), PhiA_eq]
  iintro ⟨⟨%d, -, HS⟩, Hg⟩
  isplitl [HS]
  · iexists _; iexact HS
  iexact Hg

set_option backward.isDefEq.respectTransparency.types false in
/-- Every weakly fair execution of @main terminates without a fault; every array of the pipeline ends at contents the
    relational data allow after every write-back, and every other unscoped buffer as the region found it. -/
theorem run_main : θ_run defs (onTc (τ := τ) (main (F := F))) (s₀ m ρ) (Pipeline.RDat.FramePost cfg0 (rdat m) (V m)) :=
  Pipeline.RDat.θ_run_frame_track cfgs (0 : Fin 1) launch0 defs₀ Variants.none (rdat m) m ρ main
    (hbody := body_obligation m) (hshare := fun c w => by unfold RDat.share; dsimp only [rdat]; split <;> rfl)
    (howed := fun _ _ => rfl) (V := V m) (hmain := hmain m Variants.none) (hA := rdat_A m) (hin := hin m) (hout := hout m)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h0 := (h c).1 0
    have h1 := (h c).1 1
    rw [(rdat m c).ArrAt_in 0 rfl] at h0
    rw [(rdat m c).ArrAt_in 1 rfl] at h1
    exact ⟨h0.trans ((rdat_A m c 0).trans (V_main_arg0 m c)), h1.trans ((rdat_A m c 1).trans (V_main_arg1 m c))⟩) (run_main m ρ)

end Cert.KernelIdeal.Gen

end
-- ==== Proof.KI.Final.lean ====
import proofs.«174310_g75393855914571_cont_9to1_m_809_4_alg».proof.Proof.KI.Data

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ)

/-! ## The output array after the run

The output window is the whole 4096 × 16 array at every point, never fetched, and written back once, after the last
point. During the last layer (points 152 … 159) point `t` puts rows `512 · (t − 152) …` of the final state into it and
leaves the other rows as found; so at point `t` of that layer the rows below `512 · (t − 152)` already hold the final
state, and after point 159 all 4096 rows do. The one write-back copies the window over the whole array. -/

/-- The output window is never fetched. -/
theorem fetch0_2 (t : Fin cfg0.N) : (cfg0.win 2).fetch t = false := Window.fetch_out _ rfl t

/-- The rows already emitted, by induction on the point: the previous point either emitted the row or left it as it
    found it, and it found it emitted. -/
theorem finds2_aux (c : Dev nD) : ∀ (n : ℕ) (t : Fin cfg0.N), t.val = n → ∀ Y, (rdat m c).Finds 2 t Y →
    ∀ j : S4096x16.Idx, 152 ≤ t.val → (j 0).val < 512 * (t.val - 152) → Y j = KL m c 20 j := by
  intro n
  induction n using Nat.strong_induction_on with
  | _ n ih =>
    intro t hn Y h j h152 hj
    have hN : t.val < 160 := lt_of_lt_of_eq t.isLt (show cfg0.N = 160 from N_0)
    have ht : t.val ≠ 0 := by omega
    rcases ((rdat m c).finds_of_pos (fetch0_2 t) ht Y).mp h with hfl | ⟨Y', hY', hR⟩
    · have h159 : (t.val - 1) % 160 = 159 := (flush0_2 ⟨t.val - 1, Nat.lt_of_le_of_lt (Nat.sub_le _ _) t.isLt⟩).mp hfl
      omega
    · rw [after_2] at hR
      have hj' : Y j = if 152 ≤ t.val - 1 ∧ 512 * ((t.val - 1) % 8) ≤ (j 0).val ∧ (j 0).val < 512 * ((t.val - 1) % 8) + 512
          then KL m c 20 j else Y' j := hR j
      by_cases hc : 152 ≤ t.val - 1 ∧ 512 * ((t.val - 1) % 8) ≤ (j 0).val ∧ (j 0).val < 512 * ((t.val - 1) % 8) + 512
      · rw [hj', if_pos hc]
      · rw [hj', if_neg hc]
        exact ih (t.val - 1) (by omega) ⟨t.val - 1, Nat.lt_of_le_of_lt (Nat.sub_le _ _) t.isLt⟩ rfl Y' hY' j
          (show 152 ≤ t.val - 1 by omega) (show (j 0).val < 512 * (t.val - 1 - 152) by omega)

/-- What the body finds in the output window: during the last layer (points 152 … 159) the rows already emitted hold the final state. -/
theorem finds2 (c : Dev nD) (t : Fin cfg0.N) (Y) (h : (rdat m c).Finds 2 t Y) :
    ∀ j : S4096x16.Idx, 152 ≤ t.val → (j 0).val < 512 * (t.val - 152) → Y j = KL m c 20 j :=
  finds2_aux m c t.val t rfl Y h

/-- What the last point leaves in the output window is the final state: the rows below 3584 were found there, the
    last 512 rows are the ones it emits. -/
theorem leaves2_last (c : Dev nD) (u : Fin cfg0.N) (hu : u.val = 159) (X) (h : (rdat m c).Leaves 2 u X) : X = KL m c 20 := by
  obtain ⟨Y, hY, hR⟩ := h
  rw [after_2] at hR
  funext j
  have hj' : X j = if 152 ≤ u.val ∧ 512 * (u.val % 8) ≤ (j 0).val ∧ (j 0).val < 512 * (u.val % 8) + 512
      then KL m c 20 j else Y j := hR j
  have hj0 : (j 0).val < 4096 := (j 0).isLt
  by_cases hc : 152 ≤ u.val ∧ 512 * (u.val % 8) ≤ (j 0).val ∧ (j 0).val < 512 * (u.val % 8) + 512
  · rw [hj', if_pos hc]
  · rw [hj', if_neg hc]
    exact finds2 m c u Y hY j (by omega) (by omega)

/-- The output window is the whole array: an index of the block is that index of the array. -/
theorem emb2_eq (t : Fin cfg0.N) (j : S4096x16.Idx) : ((cfg0.win 2).blk t).view.emb j = j := by
  obtain ⟨-, -, -, -, e4, e5⟩ := idx_facts t
  funext a; apply Fin.ext
  match a with
  | ⟨0, _⟩ => show win0_2.index t (0 : Fin 2) * 4096 + 1 * (j 0).val = (j 0).val; omega
  | ⟨1, _⟩ => show win0_2.index t (1 : Fin 2) * 16 + 1 * (j 1).val = (j 1).val; omega

/-- The output array after the run is the state after 20 layers. -/
theorem final2 (c : Dev nD) (G) (h : (rdat m c).ArrAt 2 cfg0.N G) : G = KL m c 20 := by
  have hN : cfg0.N = 160 := N_0
  have h159 : 159 < cfg0.N := by omega
  have e : cfg0.N = (⟨159, h159⟩ : Fin cfg0.N).val + 1 := hN
  have h' : (rdat m c).ArrAt 2 ((⟨159, h159⟩ : Fin cfg0.N).val + 1) G := by rw [← e]; exact h
  rw [Pipeline.RDat.ArrAt_succ, if_pos ((flush0_2 ⟨159, h159⟩).mpr rfl)] at h'
  obtain ⟨G₀, X, -, hX, rfl⟩ := h'
  obtain rfl := leaves2_last m c ⟨159, h159⟩ rfl X hX
  funext j
  have hw := View.write_emb_of_mem (v := ((cfg0.win 2).blk ⟨159, h159⟩).view) G₀
    ((cfg0.win 2).cut (grid0.coords ⟨159, h159⟩) (KL m c 20)) (Finset.mem_univ j)
  rw [emb2_eq] at hw
  exact hw

end Cert.KernelIdeal.Gen

end
-- ==== Proof.KI.Value.lean ====
import proofs.«174310_g75393855914571_cont_9to1_m_809_4_alg».proof.Proof.KI.Body
import proofs.«174310_g75393855914571_cont_9to1_m_809_4_alg».proof.Proof.KI.Final
import proofs.«174310_g75393855914571_cont_9to1_m_809_4_alg».proof.Proof.Gen.KernelIdeal.Frame
import proofs.«174310_g75393855914571_cont_9to1_m_809_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

/-! ## The run with the result named -/

/-- Every weakly fair execution of the kernel's program terminates without a fault, with the result array at the label
    state after 20 layers and the two argument arrays as they began. -/
theorem run_value : θ_run defs (onTc (τ := τ) (main (F := F))) ⟨m, fun _ => 0, ρ⟩ (fun r => ∀ c : Dev nD,
      r.2.mem ((c.tc : Thread nD τ).loc main_v0) = KL m c 20
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h0 := (h c).1 0
    have h1 := (h c).1 1
    have h2 := (h c).1 2
    rw [(rdat m c).ArrAt_in 0 rfl] at h0
    rw [(rdat m c).ArrAt_in 1 rfl] at h1
    exact ⟨final2 m c _ h2, h0.trans ((rdat_A m c 0).trans (V_main_arg0 m c)), h1.trans ((rdat_A m c 1).trans (V_main_arg1 m c))⟩) (run_main m ρ)

end Cert.KernelIdeal.Gen

end
-- ==== Proof.KI.LayerEq.lean ====
import proofs.«174310_g75393855914571_cont_9to1_m_809_4_alg».proof.Proof.KI.Spec
import proofs.«174310_g75393855914571_cont_9to1_m_809_4_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

/-! ## One layer of label propagation: the kernel's block arithmetic is the reference's whole-array term

Both sides compute, at row `r` and column `q`, the value `min 1 (max 0 (½ · Σ_k adj[r,k] · o[k,q] + ½ · y[r,q]))`.
The kernel reads row `r % 512` of the block `r / 512` of the adjacency matrix, which is row `r`; its matrix product starts
from a zero accumulator, and `0 + s = s` on all of the extended reals, so no finiteness is needed. -/

namespace Cert.LPRef

open Idealize.ShloMosaic Idealize.ShloMosaic.TcCoe Idealize.SL.Sem Idealize.ShloMosaic.ValueIdx

/-- One element of a layer, from the matrix product's element `s` and the label `yv`: `min 1 (max 0 (½·s + ½·yv))`. -/
def layerElt (s yv : EReal) : EReal :=
  min (Ideal.ofBits .f32 0x3F800000#32) (max (Ideal.ofBits .f32 0x00000000#32)
    (Ideal.ofBits .f32 0x3F000000#32 * s + Ideal.ofBits .f32 0x3F000000#32 * yv))

/-! ### The kernel's side: the payload of one block at an index -/

section Kernel

open Cert.KernelIdeal Cert.KernelIdeal.Gen

theorem klhs_0 (i : S512x16.Idx) (t : dot_S512x4096_S4096x16_S512x16_1_0_0_1_n_n.contr.Idx) :
    (dot_S512x4096_S4096x16_S512x16_1_0_0_1_n_n.lhsIdx i t 0).val = (i 0).val := by
  unfold DotDims.lhsIdx
  rw [dif_neg (show ¬(0 : Fin S512x4096.rank) ∈ dot_S512x4096_S4096x16_S512x16_1_0_0_1_n_n.lhsBatch by decide), dif_pos (show (0 : Fin S512x4096.rank) ∈ dot_S512x4096_S4096x16_S512x16_1_0_0_1_n_n.lhsNonContracting by decide)]
  rfl
theorem klhs_1 (i : S512x16.Idx) (t : dot_S512x4096_S4096x16_S512x16_1_0_0_1_n_n.contr.Idx) :
    (dot_S512x4096_S4096x16_S512x16_1_0_0_1_n_n.lhsIdx i t 1).val = (t ⟨0, by decide⟩).val :=
  dot_S512x4096_S4096x16_S512x16_1_0_0_1_n_n.lhsIdx_val_of_single rfl i t
theorem krhs_0 (i : S512x16.Idx) (t : dot_S512x4096_S4096x16_S512x16_1_0_0_1_n_n.contr.Idx) :
    (dot_S512x4096_S4096x16_S512x16_1_0_0_1_n_n.rhsIdx i t 0).val = (t ⟨0, by decide⟩).val :=
  dot_S512x4096_S4096x16_S512x16_1_0_0_1_n_n.rhsIdx_val_of_single rfl i t
theorem krhs_1 (i : S512x16.Idx) (t : dot_S512x4096_S4096x16_S512x16_1_0_0_1_n_n.contr.Idx) :
    (dot_S512x4096_S4096x16_S512x16_1_0_0_1_n_n.rhsIdx i t 1).val = (i 1).val := by
  unfold DotDims.rhsIdx
  rw [dif_neg (show ¬(1 : Fin S4096x16.rank) ∈ dot_S512x4096_S4096x16_S512x16_1_0_0_1_n_n.rhsBatch by decide), dif_pos (show (1 : Fin S4096x16.rank) ∈ dot_S512x4096_S4096x16_S512x16_1_0_0_1_n_n.rhsNonContracting by decide)]
  rfl

/-- The block's matrix product into a zero accumulator, read at `(p, q)`: the sum over the contracted axis. -/
theorem kmm_apply (lhs : FVec Ideal S512x4096 .f32) (rhs : FVec Ideal S4096x16 .f32) (p : Fin 512) (q : Fin 16) :
    FloatOps.matmul dot_S512x4096_S4096x16_S512x16_1_0_0_1_n_n none lhs rhs (constant S512x16 .f32 0x00000000#32) (ix2 p q)
      = ∑ k : Fin 4096, lhs (ix2 p k) * rhs (ix2 k q) := by
  rw [Ideal.matmul_constant_zero_apply, ← Equiv.sum_comp (contrEquiv1 dot_S512x4096_S4096x16_S512x16_1_0_0_1_n_n 4096 rfl rfl).symm]
  refine Finset.sum_congr rfl fun k _ => ?_
  have hk := contrEquiv1_symm_val dot_S512x4096_S4096x16_S512x16_1_0_0_1_n_n 4096 rfl rfl k
  have el : dot_S512x4096_S4096x16_S512x16_1_0_0_1_n_n.lhsIdx (ix2 p q) ((contrEquiv1 dot_S512x4096_S4096x16_S512x16_1_0_0_1_n_n 4096 rfl rfl).symm k) = ix2 p k := funext fun a => Fin.ext (by
    match a with
    | ⟨0, _⟩ => exact klhs_0 _ _
    | ⟨1, _⟩ => exact (klhs_1 _ _).trans hk)
  have er : dot_S512x4096_S4096x16_S512x16_1_0_0_1_n_n.rhsIdx (ix2 p q) ((contrEquiv1 dot_S512x4096_S4096x16_S512x16_1_0_0_1_n_n 4096 rfl rfl).symm k) = ix2 k q := funext fun a => Fin.ext (by
    match a with
    | ⟨0, _⟩ => exact (krhs_0 _ _).trans hk
    | ⟨1, _⟩ => exact krhs_1 _ _)
  rw [el, er]

/-- The body's payload at `(p, q)`: the layer's element from row `p` of the block of the adjacency matrix, the whole
    previous state behind its leading unit axis, and the block of labels. -/
theorem kpay_apply (v16 : Vec Ideal S1x4096x16 .f32) (v18 : Vec Ideal S512x4096 .f32) (v21 : Vec Ideal S512x16 .f32)
    (p : Fin 512) (q : Fin 16) :
    k0_pay3 (F := Ideal) v16 v18 v21 (ix2 p q)
      = layerElt (∑ k : Fin 4096, v18 (ix2 p k) * v16 (ix3 (0 : Fin 1) k q)) (v21 (ix2 p q)) := by
  unfold k0_pay3 layerElt
  refine congrArg (fun s : EReal => min (Ideal.ofBits .f32 0x3F800000#32) (max (Ideal.ofBits .f32 0x00000000#32)
    (Ideal.ofBits .f32 0x3F000000#32 * s + Ideal.ofBits .f32 0x3F000000#32 * v21 (ix2 p q)))) ?_
  refine (kmm_apply _ _ p q).trans ?_
  exact Finset.sum_congr rfl fun k _ => congrArg (v18 (ix2 p k) * ·) (shapeCast_1ab_ab_apply v16 shapeCasts_S1x4096x16_S4096x16 k q)

/-- Row `r % 512` of block `r / 512` of the adjacency matrix is its row `r`. -/
theorem adjBlk_row (adj : Vec Ideal S4096x4096 .f32) (r k : Fin 4096) :
    LP.adjBlk adj ⟨r.val / 512, LP.row_div_lt r.isLt⟩ (ix2 (⟨r.val % 512, LP.row_mod_lt _⟩ : Fin 512) k) = adj (ix2 r k) :=
  congrArg (fun a : Fin 4096 => adj (ix2 a k)) (Fin.ext (Nat.div_add_mod r.val 512))

/-- Row `r % 512` of block `r / 512` of a label array is its row `r`. -/
theorem rowBlk_row (y : Vec Ideal S4096x16 .f32) (r : Fin 4096) (q : Fin 16) :
    LP.rowBlk y ⟨r.val / 512, LP.row_div_lt r.isLt⟩ (ix2 (⟨r.val % 512, LP.row_mod_lt _⟩ : Fin 512) q) = y (ix2 r q) :=
  congrArg (fun a : Fin 4096 => y (ix2 a q)) (Fin.ext (Nat.div_add_mod r.val 512))

/-- One layer of the kernel at `(r, q)`. -/
theorem kstep_apply (y : Vec Ideal S4096x16 .f32) (adj : Vec Ideal S4096x4096 .f32) (o : Vec Ideal S4096x16 .f32)
    (r : Fin 4096) (q : Fin 16) :
    LP.kstep (F := Ideal) y adj o (ix2 r q) = layerElt (∑ k : Fin 4096, adj (ix2 r k) * o (ix2 k q)) (y (ix2 r q)) := by
  refine (kpay_apply (LP.slab o) (LP.adjBlk adj ⟨r.val / 512, LP.row_div_lt r.isLt⟩) (LP.rowBlk y ⟨r.val / 512, LP.row_div_lt r.isLt⟩)
    (⟨r.val % 512, LP.row_mod_lt _⟩ : Fin 512) q).trans ?_
  refine congrArg₂ layerElt (Finset.sum_congr rfl fun k _ => ?_) (rowBlk_row y r q)
  exact congrArg (· * o (ix2 k q)) (adjBlk_row adj r k)

end Kernel

/-! ### The reference's side: one layer as a term over whole arrays -/

section Reference

open Cert.ReferenceIdeal Cert.ReferenceIdeal.Gen

/-- One layer of the reference: the term its program repeats twenty times. -/
def refStep (y : FVec Ideal S4096x16 .f32) (adj : FVec Ideal S4096x4096 .f32) (o : FVec Ideal S4096x16 .f32) :
    FVec Ideal S4096x16 .f32 :=
  minimumf (broadcastInDim S4096x16 ![] bcast_S_S4096x16 (id (constant (F := Ideal) S_ .f32 0x3F800000#32)))
    (maximumf (broadcastInDim S4096x16 ![] bcast_S_S4096x16 (id (constant (F := Ideal) S_ .f32 0x00000000#32)))
      (addf (mulf (broadcastInDim S4096x16 ![] bcast_S_S4096x16 (constant (F := Ideal) S_ .f32 0x3F000000#32))
          (Host.dotGeneral (F := Ideal) dot_S4096x4096_S4096x16_S4096x16_1_0_0_1_n_n none adj o))
        (mulf (broadcastInDim S4096x16 ![] bcast_S_S4096x16 (constant (F := Ideal) S_ .f32 0x3F000000#32)) y)))

/-- A scalar broadcast to the whole array reads the scalar everywhere. -/
theorem bcast_apply (x : FVec Ideal S_ .f32) (i : S4096x16.Idx) :
    broadcastInDim S4096x16 ![] bcast_S_S4096x16 x i = x ix0 :=
  broadcastInDim_apply _ bcast_S_S4096x16 x i ix0 (fun a => a.elim0)

/-- The reference's matrix product at `(r, q)`: the same sum. -/
theorem rmm_apply (adj : FVec Ideal S4096x4096 .f32) (o : FVec Ideal S4096x16 .f32) (r : Fin 4096) (q : Fin 16) :
    Host.dotGeneral (F := Ideal) dot_S4096x4096_S4096x16_S4096x16_1_0_0_1_n_n none adj o (ix2 r q)
      = ∑ k : Fin 4096, adj (ix2 r k) * o (ix2 k q) := by
  refine (Read.val_main_v2_apply o adj (ix2 r q)).trans ?_
  refine Finset.sum_congr rfl fun k _ => ?_
  have el : Read.lidx_main_v2 (ix2 r q) k = ix2 r k := funext fun a => by
    match a with
    | ⟨0, _⟩ => rfl
    | ⟨1, _⟩ => rfl
  have er : Read.ridx_main_v2 (ix2 r q) k = ix2 k q := funext fun a => by
    match a with
    | ⟨0, _⟩ => rfl
    | ⟨1, _⟩ => rfl
  rw [el, er]

/-- One layer of the reference at `(r, q)`. -/
theorem refStep_apply (y : FVec Ideal S4096x16 .f32) (adj : FVec Ideal S4096x4096 .f32) (o : FVec Ideal S4096x16 .f32)
    (r : Fin 4096) (q : Fin 16) :
    refStep y adj o (ix2 r q) = layerElt (∑ k : Fin 4096, adj (ix2 r k) * o (ix2 k q)) (y (ix2 r q)) := by
  unfold refStep layerElt
  simp only [minimumf_apply, maximumf_apply, addf_apply, mulf_apply, bcast_apply, rmm_apply]
  rfl

/-- One layer as the kernel's blocks compute it is one layer of the reference: index by index both are
    `min 1 (max 0 (½ · Σ_k adj[r,k] · o[k,q] + ½ · y[r,q]))`. -/
theorem kstep_eq_refStep (y : FVec Ideal S4096x16 .f32) (adj : FVec Ideal S4096x4096 .f32) (o : FVec Ideal S4096x16 .f32) :
    Cert.KernelIdeal.LP.kstep (F := Ideal) y adj o = refStep y adj o := by
  funext j
  obtain ⟨r, q, rfl⟩ : ∃ (r : Fin 4096) (q : Fin 16), j = ix2 r q := ⟨j 0, j 1, eq_ix2 j⟩
  exact (kstep_apply y adj o r q).trans (refStep_apply y adj o r q).symm

/-- The state after `l` layers of the kernel is the reference's layer iterated `l` times from the labels. -/
theorem klayer_eq_iter (y : FVec Ideal S4096x16 .f32) (adj : FVec Ideal S4096x4096 .f32) (l : ℕ) :
    Cert.KernelIdeal.LP.klayer (F := Ideal) y adj l = (refStep y adj)^[l] y := by
  induction l with
  | zero => rfl
  | succ l ih => rw [Cert.KernelIdeal.LP.klayer_succ, ih, kstep_eq_refStep, Function.iterate_succ_apply']

set_option maxRecDepth 8192 in
/-- The reference's result is its layer iterated twenty times from the labels. -/
theorem res_eq (m : (ℓ : Loc nD τ sig) → Buf (Elt Ideal) ℓ) (c : Dev nD) :
    Value.res_main_v101 (F := Ideal) m c
      = (refStep (m ((c.tc : Thread nD τ).loc main_arg0)) (m ((c.tc : Thread nD τ).loc main_arg1)))^[20]
          (m ((c.tc : Thread nD τ).loc main_arg0)) := by
  unfold Value.res_main_v101
  rfl

end Reference

end Cert.LPRef

end
-- ==== Proof.lean ====
/-
  Label propagation, 20 layers of `out ← clip (½ · (adj · out) + ½ · y) 0 1` on a 4096 × 16 label array with a dense
  4096 × 4096 adjacency matrix: a kernel that keeps the state in a two-slot scratch and computes each layer in eight
  blocks of 512 rows over a 20 × 8 grid, against the reference's 20 whole-array layers.

  The three frames. The reference's is its run with the result dropped. The kernel's (at the word level and idealized,
  the same text in the two programs' namespaces) is proved over relational proof data: the two input windows are left
  as found, the output window changes only during the last layer, and between grid points the region keeps the
  scratch at contents described by an invariant — before point `n`, slot `(n/8) % 2` holds the state after `n/8`
  layers and the other slot the first `512 · (n % 8)` rows of the next state. The body runs in three control cases
  (the first point, which also copies `y` into slot 0; the points of layers 0 … 18; the points of the last layer,
  which also store into the output window).

  The value. The invariant names the state after each layer as the body's own arithmetic applied block by block
  (`klayer`); the output array after the run is `klayer 20`. Over the extended reals one such layer is the reference's
  layer index by index: both are `min 1 (max 0 (½ · Σ_k adj[r,k] · o[k,q] + ½ · y[r,q]))`, the kernel's sum taken over
  row `r % 512` of row block `r / 512`, which is row `r`; no finiteness is used. The reference's result is its layer
  iterated 20 times from `y`.

  The idealization rewrote nothing, so `preserves` is `True`.
-/
import proofs.«174310_g75393855914571_cont_9to1_m_809_4_alg».proof.Defs
import proofs.«174310_g75393855914571_cont_9to1_m_809_4_alg».proof.Proof.Gen.Kernel
import proofs.«174310_g75393855914571_cont_9to1_m_809_4_alg».proof.Proof.Gen.KernelIdeal
import proofs.«174310_g75393855914571_cont_9to1_m_809_4_alg».proof.Proof.Gen.ReferenceIdeal
import proofs.«174310_g75393855914571_cont_9to1_m_809_4_alg».proof.Proof.Gen.Pre_finite_inputs
import proofs.«174310_g75393855914571_cont_9to1_m_809_4_alg».proof.Proof.Gen.ReferenceIdeal.Run
import proofs.«174310_g75393855914571_cont_9to1_m_809_4_alg».proof.Proof.Gen.ReferenceIdeal.Read
import proofs.«174310_g75393855914571_cont_9to1_m_809_4_alg».proof.Proof.K.Body
import proofs.«174310_g75393855914571_cont_9to1_m_809_4_alg».proof.Proof.KI.Value
import proofs.«174310_g75393855914571_cont_9to1_m_809_4_alg».proof.Proof.KI.LayerEq

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the state after 20 layers: the kernel's run names it, the reference's run is its layer
    iterated, and the two layers are one function on the extended reals. -/
theorem algebraic : Cert.algebraic_KernelIdeal_ReferenceIdeal := by
  intro m ρ m' ρ' _ hagree
  refine ⟨fun c => Cert.KernelIdeal.Gen.KL (F := Ideal) m c 20, Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.LPRef.res_eq, (hagree c).1, (hagree c).2]
  exact (Cert.LPRef.klayer_eq_iter _ _ 20).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
